-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S8192x1 : Shape := ⟨2, ![8192, 1]⟩
abbrev S1x8192 : Shape := ⟨2, ![1, 8192]⟩
abbrev S1024x256 : Shape := ⟨2, ![1024, 256]⟩
abbrev S2048x256 : Shape := ⟨2, ![2048, 256]⟩
abbrev S1024x1 : Shape := ⟨2, ![1024, 1]⟩
abbrev S1x2048 : Shape := ⟨2, ![1, 2048]⟩
abbrev S1024x2048 : Shape := ⟨2, ![1024, 2048]⟩
abbrev S1024 : Shape := ⟨1, ![1024]⟩
abbrev S_ : Shape := ⟨0, ![]⟩

abbrev nBuf : Space → Nat
  | .hbm => 10
  | .vmem => 11
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .bf16⟩
  | .hbm, ⟨3, _⟩ => ⟨S8192x1, .i32⟩
  | .hbm, ⟨4, _⟩ => ⟨S1x8192, .i32⟩
  | .hbm, ⟨5, _⟩ => ⟨S8192x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S2048x256, .bf16⟩
  | .local _ .vmem, ⟨3, _⟩ => ⟨S2048x256, .bf16⟩
  | .local _ .vmem, ⟨4, _⟩ => ⟨S1024x1, .i32⟩
  | .local _ .vmem, ⟨5, _⟩ => ⟨S1024x1, .i32⟩
  | .local _ .vmem, ⟨6, _⟩ => ⟨S1x2048, .i32⟩
  | .local _ .vmem, ⟨7, _⟩ => ⟨S1x2048, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v31 : BitVec 1 := Scalar.cmpi .eq arg1 c3_i32
  let v32 : BitVec 32 := Scalar.extui v31
  let c0_i32_17 : BitVec 32 := 0#32
  let v33 : BitVec 1 := Scalar.cmpi .ne v32 c0_i32_17
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  reduces_S1024x2048_S1024 : S1024x2048.Reduces [1] S1024
  shapeCasts_S1024_S1024x1 : S1024.ShapeCasts S1024x1
  reducesTo_S8192x1_S_d0_1 : S8192x1.ReducesTo [0, 1] S_
  h_S_ : 0 < S_.numel
  dot_S1024x256_S2048x256_S1024x2048_1_1_0_0_n_n_wf : DotDims.WF S1024x256 S2048x256 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x256.size a
  hwx0_1 : ∀ i : grid0.Coords, EltTy.bits .bf16 = 32 ∨ (Rect.block (s := S8192x256) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .i32 = 32 ∨ (Rect.block (s := S1x8192) S1x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S256x8192 : Shape := ⟨2, ![256, 8192]⟩
abbrev S8192x8192 : Shape := ⟨2, ![8192, 8192]⟩
abbrev S8192x1 : Shape := ⟨2, ![8192, 1]⟩
abbrev S1x8192 : Shape := ⟨2, ![1, 8192]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S256x8192, .f32⟩
  | .hbm, ⟨3, _⟩ => ⟨S8192x8192, .f32⟩
  | .hbm, ⟨4, _⟩ => ⟨S8192x1, .i32⟩
  | .hbm, ⟨5, _⟩ => ⟨S1x8192, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .i1⟩
  | .hbm, ⟨12, _⟩ => ⟨S8192x8192, .i1⟩
  | .hbm, ⟨13, _⟩ => ⟨S8192x8192, .i1⟩
  | .hbm, ⟨14, _⟩ => ⟨S_, .f32⟩
  | .hbm, ⟨15, _⟩ => ⟨S8192x8192, .f32⟩
  | .hbm, ⟨16, _⟩ => ⟨S8192x8192, .i1⟩
  | .hbm, ⟨17, _⟩ => ⟨S8192x8192, .i1⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩

abbrev nD : Nat := 1
abbrev τ : Topo := Topo.v7x

variable {F : FTy → Type} [FloatOps F]

class Facts₀ : Prop where
  transposes_S8192x256_S256x8192_1_0 : S8192x256.Transposes [1, 0] S256x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.K.Kit.lean ====
/-
  The pallas_call of the kernel as printed: its surroundings and its schedule.

  @main is three host operations (a change of float format of the input array, two reshapes of the label
  vector), the kernel region over an 8 × 4 grid of points (i, j), and four host operations that sum the
  region's result and divide by the row count. This module fixes the contents the region finds (`V`),
  reduces @main to the region continued by the later operations (`hmain`), names each window's block at a
  point (`iblk`), shows that every input window's staging buffer holds its block when the body runs, and
  decides over the grid the two conditions the body branches on: `j = 0` (the accumulator is reset) and
  `j = 3` (the accumulator is copied to the output block); the output window is idle, and not written back,
  exactly at the points with `j ≠ 3`.
-/
import proofs.«168529_j5815385719271_2_alg».proof.Proof.Gen.Kernel.Launch
import proofs.«168529_j5815385719271_2_alg».proof.Proof.Gen.Kernel.Skeleton
import proofs.«168529_j5815385719271_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What the TensorCore's buffers hold when the region is entered: the launch contents after the three
    host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the four later host operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The host operations before the region write neither argument array. -/
theorem V_main_arg0 (c : Dev nD) : V m c main_arg0 = m ((c : Thread nD τ).loc main_arg0) := by
  dsimp only [V, V0]
  simp only [hostOps0, List.flatten_cons, List.flatten_nil, List.append_nil]
  after_results
theorem V_main_arg1 (c : Dev nD) : V m c main_arg1 = m ((c : Thread nD τ).loc main_arg1) := by
  dsimp only [V, V0]
  simp only [hostOps0, List.flatten_cons, List.flatten_nil, List.append_nil]
  after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any
    proof data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, over the grid -/

/-- `j = 0`: the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- `j = 3`: the accumulator is copied to the output block. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where `j ≠ 3` the output window is idle and its block is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- Where `j = 3` it is live. -/
theorem liveAt0_4 : ∀ t : Fin cfg0.N, cond0_1 (grid0.coords t) → cfg0.idle 4 (grid0.coords t) = false := by decide +kernel

/-! ## The staging memrefs at a point, and the scratch -/

abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The accumulator: a whole scoped buffer of the kernel's own, kept between points. -/
abbrev scM0_0 : Memref sig .tc .vmem S1024x1 .f32 := Memref.whole cc0_scratch0

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.K.RunA.lean ====
/-
  The body at a point with `j = 0`: the accumulator, found at anything, is overwritten by zeros and then by
  zeros plus this block's row sums; the output block's staging buffer is not touched. The stores the run
  makes into the accumulator are its witness.
-/
import proofs.«168529_j5815385719271_2_alg».proof.Proof.K.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body stores into the accumulator at a point with `j = 0`, with the body's triple. -/
noncomputable def kernelRun0_A (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x256 .bf16) (x1 : Vec F S2048x256 .bf16) (x2 : Vec F S1024x1 .i32) (x3 : Vec F S1x2048 .i32) :
    { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨?_, fun xi4 E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.RunB.lean ====
/-
  The body at a point with `j = 1` or `j = 2`: this block's row sums are added to the accumulator the
  point before left; the output block's staging buffer is not touched.
-/
import proofs.«168529_j5815385719271_2_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body stores into the accumulator at a point with `0 < j < 3`, with the body's triple. -/
noncomputable def kernelRun0_B (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x256 .bf16) (x1 : Vec F S2048x256 .bf16) (x2 : Vec F S1024x1 .i32) (x3 : Vec F S1x2048 .i32) (xs0 : Vec F S1024x1 .f32) :
    { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨?_, fun xi4 E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.RunC.lean ====
/-
  The body at a point with `j = 3`: this block's row sums are added to the accumulator, and the
  accumulator is then copied whole into the output block's staging buffer (found at anything).
-/
import proofs.«168529_j5815385719271_2_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body stores into the output block and into the accumulator at a point with `j = 3`, with
    the body's triple. -/
noncomputable def kernelRun0_C (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x256 .bf16) (x1 : Vec F S2048x256 .bf16) (x2 : Vec F S1024x1 .i32) (x3 : Vec F S1x2048 .i32) (xs0 : Vec F S1024x1 .f32) :
    Σ' (L4 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨?_, ?_, fun E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.K.Pieces.lean ====
/-
  What each case of the body leaves behind: the accumulator after the body (and, where `j = 3`, the output
  block's staging buffer) read back from the stores the run made. In every case those stores cover the
  whole buffer, so what is read back does not depend on what the buffer held before.
-/
import proofs.«168529_j5815385719271_2_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator as a view, and one staging buffer of the output window: contents are stated through them. -/
abbrev VS0_0 : View sig .tc .vmem S1024x1 .f32 := scM0_0.view
abbrev VO0_4 : View sig .tc .vmem S1024x1 .f32 := (Memref.whole cc0_stg4_0 : Memref sig .tc .vmem S1024x1 .f32).view

theorem scover0_A_0 (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x256 .bf16) (x1 : Vec F S2048x256 .bf16) (x2 : Vec F S1024x1 .i32) (x3 : Vec F S1x2048 .i32) (y : S1024x1.Idx) :
    ∃ pc ∈ (kernelRun0_A c i arg2 harg2 arg3 harg3 arg4 harg4 arg5 harg5 arg6 harg6 arg7 harg7 hc0 hc1 x0 x1 x2 x3).1, y ∈ pc.1.set :=
  View.cover_of_tiledL (kernelRun0_A c i arg2 harg2 arg3 harg3 arg4 harg4 arg5 harg5 arg6 harg6 arg7 harg7 hc0 hc1 x0 x1 x2 x3).1 S1024x1.size (by sl_kernel_rfl) y

/-- The accumulator after a point with `j = 0`. -/
def sout0_A_0 (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x256 .bf16) (x1 : Vec F S2048x256 .bf16) (x2 : Vec F S1024x1 .i32) (x3 : Vec F S1x2048 .i32) : Vec F S1024x1 .f32 :=
  VS0_0.read (Elt F) (VS0_0.writes (Elt F) VS0_0.junk (kernelRun0_A c i arg2 harg2 arg3 harg3 arg4 harg4 arg5 harg5 arg6 harg6 arg7 harg7 hc0 hc1 x0 x1 x2 x3).1)

theorem scover0_B_0 (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x256 .bf16) (x1 : Vec F S2048x256 .bf16) (x2 : Vec F S1024x1 .i32) (x3 : Vec F S1x2048 .i32) (xs0 : Vec F S1024x1 .f32) (y : S1024x1.Idx) :
    ∃ pc ∈ (kernelRun0_B c i arg2 harg2 arg3 harg3 arg4 harg4 arg5 harg5 arg6 harg6 arg7 harg7 hc0 hc1 x0 x1 x2 x3 xs0).1, y ∈ pc.1.set :=
  View.cover_of_tiledL (kernelRun0_B c i arg2 harg2 arg3 harg3 arg4 harg4 arg5 harg5 arg6 harg6 arg7 harg7 hc0 hc1 x0 x1 x2 x3 xs0).1 S1024x1.size (by sl_kernel_rfl) y

/-- The accumulator after a point with `0 < j < 3`. -/
def sout0_B_0 (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x256 .bf16) (x1 : Vec F S2048x256 .bf16) (x2 : Vec F S1024x1 .i32) (x3 : Vec F S1x2048 .i32) (xs0 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).1)

theorem cover0_C_4 (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x256 .bf16) (x1 : Vec F S2048x256 .bf16) (x2 : Vec F S1024x1 .i32) (x3 : Vec F S1x2048 .i32) (xs0 : Vec F S1024x1 .f32) (y : S1024x1.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1024x1.size (by sl_kernel_rfl) y

/-- The output block's staging buffer after a point with `j = 3`. -/
def out0_C_4 (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x256 .bf16) (x1 : Vec F S2048x256 .bf16) (x2 : Vec F S1024x1 .i32) (x3 : Vec F S1x2048 .i32) (xs0 : Vec F S1024x1 .f32) : Vec F S1024x1 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

theorem scover0_C_0 (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x256 .bf16) (x1 : Vec F S2048x256 .bf16) (x2 : Vec F S1024x1 .i32) (x3 : Vec F S1x2048 .i32) (xs0 : Vec F S1024x1 .f32) (y : S1024x1.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1024x1.size (by sl_kernel_rfl) y

/-- The accumulator after a point with `j = 3`. -/
def sout0_C_0 (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x256 .bf16) (x1 : Vec F S2048x256 .bf16) (x2 : Vec F S1024x1 .i32) (x3 : Vec F S1x2048 .i32) (xs0 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

end Cert.Kernel.Hand

end
-- ==== Proof.K.Frame.lean ====
/-
  The proof data of the pipeline and the body obligation.

  After the body at point `t = 4 i + j` the accumulator holds the row sums of blocks `0 … j` of block row
  `i` (`outsAt0`, by recursion on the point: at `j = 0` the case that resets, afterwards the case that adds to
  what the point before left); at `j = 3` the output block's staging buffer holds a copy of it, and that is
  the only point of the block row at which the block is written back. Every input window's buffer holds its
  block throughout. The region's invariant is the accumulator at those contents (at anything before the
  first point) and the generator register at some state; the core owes nothing.
-/
import proofs.«168529_j5815385719271_2_alg».proof.Proof.K.Pieces

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the output block's staging buffer (first component; meaningful at `j = 3` only) and the
    accumulator (second component) hold after the body at position `n`. -/
def outsAt0 (c : Dev nD) : (n : ℕ) → n < cfg0.N → Vec F S1024x1 .f32 × Vec F S1024x1 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 4 = 0 then
      if h1 : (n + 1) % 4 = 3 then
        False.elim (by omega)
      else
        (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scratch at anything; afterwards
    the accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The proof data of the pipeline on core `c`. The two windows on the format-changed input array hold one half
    share of it each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0_0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves0_1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves0_2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves0_3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]

set_option maxHeartbeats 4800000 in
/-- The body at any point: the inputs' buffers hold their blocks; the closed forms say which case the point is in;
    that case's run applies, with the accumulator at what the point before left (at anything where `j = 0`). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3]
  have hN : t.val < 32 := lt_of_lt_of_eq t.isLt (show cfg0.N = 32 from N_0)
  by_cases h0 : t.val % 4 = 0
  · have h1 : ¬t.val % 4 = 3 := by omega
    rw [Dat.leavesExact_idle (dats m 0 c) 4 t (idleAt0_4 t (fun h => h1 ((hcond0_1 t).mp h))) (noFlush0_4 t (fun h => h1 ((hcond0_1 t).mp h)))]
    rw [outsAt0_A m c t h0 h1]
    unfold sout0_A_0; (try dsimp only)
    have hΦ : PhiS m c t.val (Nat.le_of_lt t.isLt) ⊢ iprop(iprop((∃ d, owns (c : Thread nD τ) scM0_0 fullShare d)) ∗ (∃ r, prngReg c r)) := by
      by_cases hz : t.val = 0
      · rw [PhiS_zero m c _ _ hz, PhiA0_eq]
      · rw [PhiS_pos m c _ _ hz]
        iintro ⟨HS0, Hg⟩
        isplitl [HS0]; · iexists _; iexact HS0
        iexact Hg
    rw [PhiS_castSucc m c t]
    iintro ⟨HΦ, Ho, ⟨%d0, H0⟩, ⟨%d1, H1⟩, ⟨%d2, H2⟩, ⟨%d3, H3⟩, ⟨%d4, H4⟩⟩
    ihave HΦ' := hΦ $$ HΦ
    icases HΦ' with ⟨HS0, Hg⟩
    iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)).2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    by_cases h1 : t.val % 4 = 3
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the accumulator's contents are forgotten. -/
theorem hout (c : Dev nD) : (dats m 0 c).Φ (Fin.last cfg0.N) ⊢ Pipeline.ΦA spec0 c := by
  have ht : (Fin.last cfg0.N).val ≠ 0 := by rw [Fin.val_last]; have : cfg0.N = 32 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨HS0, Hg⟩
  isplitl [HS0]
  · iexists _; iexact HS0
  iexact Hg

end Cert.Kernel.Hand

end
-- ==== Proof.K.Tail.lean ====
/-
  The two places where the launch meets the arrays.

  Two of the five windows read the same array (the format-changed input): the region holds it once, whole,
  and hands each of the two windows one half of it (`arrays_of_bufs`). After the region the four later host
  operations read the region's result — a whole array at the full share, the output window's — and write
  four scalars that are no window's array; the input arrays' shares are not touched (`tail_run`).
-/
import proofs.«168529_j5815385719271_2_alg».proof.Proof.K.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the four later host operations compute from the region's result: its sum over every index, from
    zero, divided by the row count. -/
def tailVal (P : (⟨S8192x1, .f32⟩ : BufTy).Contents (Elt F)) : (⟨S_, .f32⟩ : BufTy).Contents (Elt F) :=
  Host.divf (Host.reduceAdd P (constant S_ .f32 0x00000000#32) reducesTo_S8192x1_S_d0_1 h_S_) (constant S_ .f32 0x46000000#32)

/-- What the core holds beside the windows' arrays after the later host operations: the two argument arrays as
    the region found them, the result scalar at `tailVal` of the region's result, three scalars at anything. -/
def Zend (c : Dev nD) (P : (⟨S8192x1, .f32⟩ : BufTy).Contents (Elt F)) : sProp 𝕄 :=
  iprop((((c : Thread nD τ).loc main_arg0) ↦{fullShare} V m c main_arg0) ∗ (((c : Thread nD τ).loc main_arg1) ↦{fullShare} V m c main_arg1)
    ∗ (((c : Thread nD τ).loc main_v5) ↦{fullShare} tailVal (F := F) P)
    ∗ (∃ f, ((c : Thread nD τ).loc main_cst) ↦{fullShare} f) ∗ (∃ f, ((c : Thread nD τ).loc main_v4) ↦{fullShare} f) ∗ (∃ f, ((c : Thread nD τ).loc main_cst_0) ↦{fullShare} f))

variable {c : Dev nD} (dat : Dat τ (Elt F) Unit ℕ (UR sig nD τ) ℕ cfg0 c)

/-- The buffers behind the windows' arrays, each whole at the full share, make the proof data's arrays: the
    shared array is split in two halves. -/
theorem arrays_of_bufs (hq0 : dat.q 0 = fullShare.left) (hq1 : dat.q 1 = fullShare.right) (hq2 : dat.q 2 = fullShare) (hq3 : dat.q 3 = fullShare)
    (Vc : (b : Ref sig .tc) → Buf (Elt F) ((c : Thread nD τ).loc b))
    (Fw : (w : Fin cfg0.W) → Buf (Elt F) ((cfg0.win w).arr.view.loc (c : Thread nD τ))) (hF : ∀ w, Fw w = Vc (Pipeline.arrRef spec0 w)) :
    (Pipeline.arrBufs (Ix := Unit) (Name := ℕ) (U := UR sig nD τ) (Lvl := ℕ) spec0 c Vc : sProp 𝕄) ⊢ dat.arrays Fw := by
  classical
  have s0 : dat.share 0 = fullShare.left := by
    unfold Dat.share; rw [if_neg (show ¬((cfg0.win 0).isOut = true) from Bool.false_ne_true)]; exact hq0
  have s1 : dat.share 1 = fullShare.right := by
    unfold Dat.share; rw [if_neg (show ¬((cfg0.win 1).isOut = true) from Bool.false_ne_true)]; exact hq1
  have s2 : dat.share 2 = fullShare := by
    unfold Dat.share; rw [if_neg (show ¬((cfg0.win 2).isOut = true) from Bool.false_ne_true)]; exact hq2
  have s3 : dat.share 3 = fullShare := by
    unfold Dat.share; rw [if_neg (show ¬((cfg0.win 3).isOut = true) from Bool.false_ne_true)]; exact hq3
  have s4 : dat.share 4 = fullShare := by
    unfold Dat.share; rw [if_pos (show (cfg0.win 4).isOut = true from rfl)]
  have hL : (Pipeline.arrBufs (Ix := Unit) (Name := ℕ) (U := UR sig nD τ) (Lvl := ℕ) spec0 c Vc : sProp 𝕄)
      = iprop((((c : Thread nD τ).loc main_v0) ↦{fullShare} Vc main_v0) ∗ (((c : Thread nD τ).loc main_v1) ↦{fullShare} Vc main_v1)
          ∗ (((c : Thread nD τ).loc main_v2) ↦{fullShare} Vc main_v2) ∗ (((c : Thread nD τ).loc main_v3) ↦{fullShare} Vc main_v3)) := by
    unfold Pipeline.arrBufs
    exact bigSep_eq_bigSepL_of_eq [main_v0, main_v1, main_v2, main_v3] (by decide) (by decide) _
  rw [hL]
  unfold Dat.arrays
  rw [Gen.bigSep_W0]
  simp only [View.set_whole]
  rw [s0, s1, s2, s3, s4, hF 0, hF 1, hF 2, hF 3, hF 4]
  iintro ⟨H0, H1, H2, H3⟩
  ihave H0' := (pointsTo_share (PosShare.mem_left_op_right fullShare)).1 $$ H0
  icases H0' with ⟨Hl, Hr⟩
  isplitl [Hl]; · iexact Hl
  isplitl [Hr]; · iexact Hr
  isplitl [H1]; · iexact H1
  isplitl [H2]; · iexact H2
  iexact H3

/-! ## The later host operations: their buffers, the contents they start from, what they leave -/

/-- The references the four later host operations touch: the region's result and the four scalars. -/
abbrev tailL : List (Ref sig .tc) := [main_v3, main_cst, main_v4, main_cst_0, main_v5]

/-- The device buffers behind them. -/
def tailS : Finset (DevRef τ sig) := tailL.toFinset.map ⟨Proc.devRef (sig := sig) (.tc : Proc τ), Proc.devRef_injective _⟩

theorem mem_tailS {b : Ref sig .tc} (h : b ∈ tailL) : Proc.devRef (τ := τ) .tc b ∈ tailS :=
  Finset.mem_map_of_mem _ (List.mem_toFinset.mpr h)

/-- Every one of the four operations stays within those buffers. -/
theorem hostOps1_tailS : (hostOps1 : List (HloOp τ sig (Elt F))).Forall fun op => op.bufs ⊆ tailS :=
  ⟨Finset.singleton_subset_iff.mpr (mem_tailS (by decide)),
    Finset.insert_subset (mem_tailS (by decide)) (Finset.insert_subset (mem_tailS (by decide)) (Finset.singleton_subset_iff.mpr (mem_tailS (by decide)))),
    Finset.singleton_subset_iff.mpr (mem_tailS (by decide)),
    Finset.insert_subset (mem_tailS (by decide)) (Finset.insert_subset (mem_tailS (by decide)) (Finset.singleton_subset_iff.mpr (mem_tailS (by decide))))⟩

/-- Those buffers held whole at a valuation, one by one. -/
theorem held_tailS (c : Dev nD) (W : Valuation τ sig (Elt F)) :
    (StableHlo.held (c : Thread nD τ) tailS W : sProp 𝕄)
      = iprop((((c : Thread nD τ).loc main_v3) ↦{fullShare} W (Proc.devRef .tc main_v3)) ∗ (((c : Thread nD τ).loc main_cst) ↦{fullShare} W (Proc.devRef .tc main_cst))
          ∗ (((c : Thread nD τ).loc main_v4) ↦{fullShare} W (Proc.devRef .tc main_v4)) ∗ (((c : Thread nD τ).loc main_cst_0) ↦{fullShare} W (Proc.devRef .tc main_cst_0))
          ∗ (((c : Thread nD τ).loc main_v5) ↦{fullShare} W (Proc.devRef .tc main_v5))) := by
  unfold StableHlo.held tailS
  rw [bigSep_map]
  exact bigSep_eq_bigSepL tailL (by decide) _

/-- The contents the later operations start from: the region's result at its buffer, the region-entry contents elsewhere. -/
def tailW (c : Dev nD) (P : (⟨S8192x1, .f32⟩ : BufTy).Contents (Elt F)) : Valuation τ sig (Elt F) :=
  Function.update (V0 m c) (Proc.devRef .tc main_v3) P

theorem tailW_v3 (c : Dev nD) (P : (⟨S8192x1, .f32⟩ : BufTy).Contents (Elt F)) : tailW m c P (Proc.devRef .tc main_v3) = P := by
  unfold tailW; exact Function.update_self ..

theorem tailW_ne (c : Dev nD) (P : (⟨S8192x1, .f32⟩ : BufTy).Contents (Elt F)) {b : Ref sig .tc} (h : b ≠ main_v3) :
    tailW m c P (Proc.devRef .tc b) = V m c b := by
  unfold tailW; exact Function.update_of_ne (StableHlo.devRef_ne_of_ne h) ..

/-- No later operation writes the region's result. -/
theorem after1_v3 (W : Valuation τ sig (Elt F)) :
    StableHlo.after (hostOps1 : List (HloOp τ sig (Elt F))) W (Proc.devRef .tc main_v3) = W (Proc.devRef .tc main_v3) := by
  simp only [hostOps1]
  after_results

/-- The last of them leaves `tailVal` of the region's result. -/
theorem after1_v5 (W : Valuation τ sig (Elt F)) :
    StableHlo.after (hostOps1 : List (HloOp τ sig (Elt F))) W (Proc.devRef .tc main_v5) = tailVal (F := F) (W (Proc.devRef .tc main_v3)) := by
  simp only [hostOps1]
  after_results
  rfl

set_option backward.isDefEq.respectTransparency.types false in
/-- The later host operations, run from the arrays as the region left them and the bypassing buffers as the region
    found them, give the arrays back untouched and leave `Zend` of the region's result. -/
theorem tail_run (Q' : PUnit → sProp 𝕄) :
    iprop((iprop(dat.arrays (dat.arrAt · cfg0.N) ∗ Zend m c (dat.arrAt 4 cfg0.N)) -∗ Q' ⟨⟩)
        ∗ boundary (c : Thread nD τ) ∗ dat.arrays (dat.arrAt · cfg0.N)
        ∗ Pipeline.unscopedRest (Ix := Unit) (Name := ℕ) (U := UR sig nD τ) (Lvl := ℕ) spec0 c (V m c))
      ⊢ wp frame (wpE (defs (F := F)) (Variants.lift Variants.none) (c : Thread nD τ) none) Set.univ (Pipeline.chain [StableHlo.seq hostOps1]) Q' := by
  classical
  have s4 : dat.share 4 = fullShare := by
    unfold Dat.share; rw [if_pos (show (cfg0.win 4).isOut = true from rfl)]
  rw [Gen.unscopedRest0_eq]
  unfold Dat.arrays
  rw [Gen.bigSep_W0]
  simp only [Pipeline.chain_cons, Pipeline.chain_nil, View.set_whole]
  rw [s4]
  iintro ⟨Hk, Hb, ⟨A0, A1, A2, A3, A4⟩, U0, U1, Ucst, Uv4, Ucst0, Uv5⟩
  iapply (StableHlo.wp_seq (Variants.lift Variants.none) none Set.univ c tailS _ hostOps1
    (List.forall_iff_forall_mem.mp hostOps1_tailS) (List.forall_iff_forall_mem.mp hostOps1_fresh) (tailW m c (dat.arrAt 4 cfg0.N))) $$ [Hb A4 Ucst Uv4 Ucst0 Uv5]
  · rw [held_tailS, tailW_v3, tailW_ne m c _ (by decide : main_cst ≠ main_v3), tailW_ne m c _ (by decide : main_v4 ≠ main_v3),
      tailW_ne m c _ (by decide : main_cst_0 ≠ main_v3), tailW_ne m c _ (by decide : main_v5 ≠ main_v3)]
    isplitl [Hb]; · iexact Hb
    isplitl [A4]; · iexact A4
    isplitl [Ucst]; · iexact Ucst
    isplitl [Uv4]; · iexact Uv4
    isplitl [Ucst0]; · iexact Ucst0
    iexact Uv5
  iintro Hh
  rw [wp_pure, held_tailS, after1_v3, after1_v5, tailW_v3]
  imodintro
  iapply Hk
  icases Hh with ⟨-, A4, Ucst, Uv4, Ucst0, Uv5⟩
  isplitl [A0 A1 A2 A3 A4]
  · isplitl [A0]; · iexact A0
    isplitl [A1]; · iexact A1
    isplitl [A2]; · iexact A2
    isplitl [A3]; · iexact A3
    iexact A4
  · unfold Zend
    isplitl [U0]; · iexact U0
    isplitl [U1]; · iexact U1
    isplitl [Uv5]; · iexact Uv5
    isplitl [Ucst]; · iexists _; iexact Ucst
    isplitl [Uv4]; · iexists _; iexact Uv4
    iexists _; iexact Ucst0

end Cert.Kernel.Hand

end
-- ==== Proof.K.Launch.lean ====
/-
  The run of the whole program: the three earlier host operations, the region at every grid point, the four
  later host operations. Every weakly fair execution terminates without a fault; afterwards each window's
  array holds what the write-backs of the proof data leave in it, the two argument arrays hold what they held
  at launch, and the result scalar is the later operations' value of the region's result.
-/
import proofs.«168529_j5815385719271_2_alg».proof.Proof.K.Frame
import proofs.«168529_j5815385719271_2_alg».proof.Proof.K.Tail

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_main : θ_run defs (onTc (τ := τ) (main (F := F))) (s₀ m ρ) (fun r => ∀ c : Dev nD,
      (∀ w, r.2.mem (((cfg0).spec w).arr.view.loc (c.tc : Thread nD τ)) = (dats m 0 c).arrAt w cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v5) = tailVal (F := F) ((dats m 0 c).arrAt 4 cfg0.N)) := by
  classical
  exact Pipeline.θ_run_region_pf_tail (fun q => (cfgs q).toPCfg (Val := Elt F)) (fun q => (cfgs q).toPCfg_adm) (dats m) () cellOf_inj 0
    winFacts₀0 (Pipeline.OwnSemFacts.none _) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs (dats m 0 c) rfl rfl rfl rfl (V m c) _ (fun w => A_eq m c w))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Zend m c ((dats m 0 c).arrAt 4 cfg0.N))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => tail_run m (dats m 0 c) Q')
    (QY := fun c s => s.mem ((c.tc : Thread nD τ).loc main_arg0) = V m c main_arg0
      ∧ s.mem ((c.tc : Thread nD τ).loc main_arg1) = V m c main_arg1
      ∧ s.mem ((c.tc : Thread nD τ).loc main_v5) = tailVal (F := F) ((dats m 0 c).arrAt 4 cfg0.N))
    (hY := fun c s' => by
      unfold Zend
      iintro ⟨-, ⟨H0, H1, H5, -⟩, HSI⟩
      icombine HSI H0 gives %h0
      icombine HSI H1 gives %h1
      icombine HSI H5 gives %h5
      imodintro
      isplitr
      · ipureintro; exact ⟨Buf.eq_of_forall_mem_univ h0, Buf.eq_of_forall_mem_univ h1, Buf.eq_of_forall_mem_univ h5⟩
      iexact HSI)
    (hQ := fun s h c => ⟨(h c).1, (h c).2.2.1.trans (V_main_arg0 m c), (h c).2.2.2.1.trans (V_main_arg1 m c), (h c).2.2.2.2⟩)

/-- THE FRAME: the program terminates without a fault and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.1, (h c).2.2.1⟩) (run_main m ρ)

end Cert.Kernel.Hand

end
-- ==== Proof.KI.Kit.lean ====
/-
  The pallas_call of the idealized kernel: its surroundings and its schedule.

  @main is three host operations (a change of float format of the input array, two reshapes of the label
  vector), the kernel region over an 8 × 4 grid of points (i, j), and four host operations that sum the
  region's result and divide by the row count. This module fixes the contents the region finds (`V`),
  reduces @main to the region continued by the later operations (`hmain`), names each window's block at a
  point (`iblk`), shows that every input window's staging buffer holds its block when the body runs, and
  decides over the grid the two conditions the body branches on: `j = 0` (the accumulator is reset) and
  `j = 3` (the accumulator is copied to the output block); the output window is idle, and not written back,
  exactly at the points with `j ≠ 3`.
-/
import proofs.«168529_j5815385719271_2_alg».proof.Proof.Gen.KernelIdeal.Launch
import proofs.«168529_j5815385719271_2_alg».proof.Proof.Gen.KernelIdeal.Skeleton
import proofs.«168529_j5815385719271_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What the TensorCore's buffers hold when the region is entered: the launch contents after the three
    host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the four later host operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The host operations before the region write neither argument array. -/
theorem V_main_arg0 (c : Dev nD) : V m c main_arg0 = m ((c : Thread nD τ).loc main_arg0) := by
  dsimp only [V, V0]
  simp only [hostOps0, List.flatten_cons, List.flatten_nil, List.append_nil]
  after_results
theorem V_main_arg1 (c : Dev nD) : V m c main_arg1 = m ((c : Thread nD τ).loc main_arg1) := by
  dsimp only [V, V0]
  simp only [hostOps0, List.flatten_cons, List.flatten_nil, List.append_nil]
  after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any
    proof data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, over the grid -/

/-- `j = 0`: the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- `j = 3`: the accumulator is copied to the output block. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where `j ≠ 3` the output window is idle and its block is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- Where `j = 3` it is live. -/
theorem liveAt0_4 : ∀ t : Fin cfg0.N, cond0_1 (grid0.coords t) → cfg0.idle 4 (grid0.coords t) = false := by decide +kernel

/-! ## The staging memrefs at a point, and the scratch -/

abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The accumulator: a whole scoped buffer of the kernel's own, kept between points. -/
abbrev scM0_0 : Memref sig .tc .vmem S1024x1 .f32 := Memref.whole cc0_scratch0

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KI.RunA.lean ====
/-
  The body at a point with `j = 0`: the accumulator, found at anything, is overwritten by zeros and then by
  zeros plus this block's row sums; the output block's staging buffer is not touched. The stores the run
  makes into the accumulator are its witness.
-/
import proofs.«168529_j5815385719271_2_alg».proof.Proof.KI.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body stores into the accumulator at a point with `j = 0`, with the body's triple. -/
noncomputable def kernelRun0_A (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x256 .bf16) (x1 : Vec F S2048x256 .bf16) (x2 : Vec F S1024x1 .i32) (x3 : Vec F S1x2048 .i32) :
    { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨?_, fun xi4 E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.RunB.lean ====
/-
  The body at a point with `j = 1` or `j = 2`: this block's row sums are added to the accumulator the
  point before left; the output block's staging buffer is not touched.
-/
import proofs.«168529_j5815385719271_2_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body stores into the accumulator at a point with `0 < j < 3`, with the body's triple. -/
noncomputable def kernelRun0_B (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x256 .bf16) (x1 : Vec F S2048x256 .bf16) (x2 : Vec F S1024x1 .i32) (x3 : Vec F S1x2048 .i32) (xs0 : Vec F S1024x1 .f32) :
    { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨?_, fun xi4 E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.RunC.lean ====
/-
  The body at a point with `j = 3`: this block's row sums are added to the accumulator, and the
  accumulator is then copied whole into the output block's staging buffer (found at anything).
-/
import proofs.«168529_j5815385719271_2_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body stores into the output block and into the accumulator at a point with `j = 3`, with
    the body's triple. -/
noncomputable def kernelRun0_C (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x256 .bf16) (x1 : Vec F S2048x256 .bf16) (x2 : Vec F S1024x1 .i32) (x3 : Vec F S1x2048 .i32) (xs0 : Vec F S1024x1 .f32) :
    Σ' (L4 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨?_, ?_, fun E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.Pieces.lean ====
/-
  What each case of the body leaves behind: the accumulator after the body (and, where `j = 3`, the output
  block's staging buffer) read back from the stores the run made. In every case those stores cover the
  whole buffer, so what is read back does not depend on what the buffer held before.
-/
import proofs.«168529_j5815385719271_2_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator as a view, and one staging buffer of the output window: contents are stated through them. -/
abbrev VS0_0 : View sig .tc .vmem S1024x1 .f32 := scM0_0.view
abbrev VO0_4 : View sig .tc .vmem S1024x1 .f32 := (Memref.whole cc0_stg4_0 : Memref sig .tc .vmem S1024x1 .f32).view

theorem scover0_A_0 (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x256 .bf16) (x1 : Vec F S2048x256 .bf16) (x2 : Vec F S1024x1 .i32) (x3 : Vec F S1x2048 .i32) (y : S1024x1.Idx) :
    ∃ pc ∈ (kernelRun0_A c i arg2 harg2 arg3 harg3 arg4 harg4 arg5 harg5 arg6 harg6 arg7 harg7 hc0 hc1 x0 x1 x2 x3).1, y ∈ pc.1.set :=
  View.cover_of_tiledL (kernelRun0_A c i arg2 harg2 arg3 harg3 arg4 harg4 arg5 harg5 arg6 harg6 arg7 harg7 hc0 hc1 x0 x1 x2 x3).1 S1024x1.size (by sl_kernel_rfl) y

/-- The accumulator after a point with `j = 0`. -/
def sout0_A_0 (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x256 .bf16) (x1 : Vec F S2048x256 .bf16) (x2 : Vec F S1024x1 .i32) (x3 : Vec F S1x2048 .i32) : Vec F S1024x1 .f32 :=
  VS0_0.read (Elt F) (VS0_0.writes (Elt F) VS0_0.junk (kernelRun0_A c i arg2 harg2 arg3 harg3 arg4 harg4 arg5 harg5 arg6 harg6 arg7 harg7 hc0 hc1 x0 x1 x2 x3).1)

theorem scover0_B_0 (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x256 .bf16) (x1 : Vec F S2048x256 .bf16) (x2 : Vec F S1024x1 .i32) (x3 : Vec F S1x2048 .i32) (xs0 : Vec F S1024x1 .f32) (y : S1024x1.Idx) :
    ∃ pc ∈ (kernelRun0_B c i arg2 harg2 arg3 harg3 arg4 harg4 arg5 harg5 arg6 harg6 arg7 harg7 hc0 hc1 x0 x1 x2 x3 xs0).1, y ∈ pc.1.set :=
  View.cover_of_tiledL (kernelRun0_B c i arg2 harg2 arg3 harg3 arg4 harg4 arg5 harg5 arg6 harg6 arg7 harg7 hc0 hc1 x0 x1 x2 x3 xs0).1 S1024x1.size (by sl_kernel_rfl) y

/-- The accumulator after a point with `0 < j < 3`. -/
def sout0_B_0 (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x256 .bf16) (x1 : Vec F S2048x256 .bf16) (x2 : Vec F S1024x1 .i32) (x3 : Vec F S1x2048 .i32) (xs0 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).1)

theorem cover0_C_4 (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x256 .bf16) (x1 : Vec F S2048x256 .bf16) (x2 : Vec F S1024x1 .i32) (x3 : Vec F S1x2048 .i32) (xs0 : Vec F S1024x1 .f32) (y : S1024x1.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1024x1.size (by sl_kernel_rfl) y

/-- The output block's staging buffer after a point with `j = 3`. -/
def out0_C_4 (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x256 .bf16) (x1 : Vec F S2048x256 .bf16) (x2 : Vec F S1024x1 .i32) (x3 : Vec F S1x2048 .i32) (xs0 : Vec F S1024x1 .f32) : Vec F S1024x1 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

theorem scover0_C_0 (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x256 .bf16) (x1 : Vec F S2048x256 .bf16) (x2 : Vec F S1024x1 .i32) (x3 : Vec F S1x2048 .i32) (xs0 : Vec F S1024x1 .f32) (y : S1024x1.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1024x1.size (by sl_kernel_rfl) y

/-- The accumulator after a point with `j = 3`. -/
def sout0_C_0 (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x256 .bf16) (x1 : Vec F S2048x256 .bf16) (x2 : Vec F S1024x1 .i32) (x3 : Vec F S1x2048 .i32) (xs0 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

end Cert.KernelIdeal.Hand

end
-- ==== Proof.KI.Frame.lean ====
/-
  The proof data of the pipeline and the body obligation.

  After the body at point `t = 4 i + j` the accumulator holds the row sums of blocks `0 … j` of block row
  `i` (`outsAt0`, by recursion on the point: at `j = 0` the case that resets, afterwards the case that adds to
  what the point before left); at `j = 3` the output block's staging buffer holds a copy of it, and that is
  the only point of the block row at which the block is written back. Every input window's buffer holds its
  block throughout. The region's invariant is the accumulator at those contents (at anything before the
  first point) and the generator register at some state; the core owes nothing.
-/
import proofs.«168529_j5815385719271_2_alg».proof.Proof.KI.Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the output block's staging buffer (first component; meaningful at `j = 3` only) and the
    accumulator (second component) hold after the body at position `n`. -/
def outsAt0 (c : Dev nD) : (n : ℕ) → n < cfg0.N → Vec F S1024x1 .f32 × Vec F S1024x1 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 4 = 0 then
      if h1 : (n + 1) % 4 = 3 then
        False.elim (by omega)
      else
        (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scratch at anything; afterwards
    the accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The proof data of the pipeline on core `c`. The two windows on the format-changed input array hold one half
    share of it each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0_0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves0_1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves0_2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves0_3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]

set_option maxHeartbeats 4800000 in
/-- The body at any point: the inputs' buffers hold their blocks; the closed forms say which case the point is in;
    that case's run applies, with the accumulator at what the point before left (at anything where `j = 0`). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3]
  have hN : t.val < 32 := lt_of_lt_of_eq t.isLt (show cfg0.N = 32 from N_0)
  by_cases h0 : t.val % 4 = 0
  · have h1 : ¬t.val % 4 = 3 := by omega
    rw [Dat.leavesExact_idle (dats m 0 c) 4 t (idleAt0_4 t (fun h => h1 ((hcond0_1 t).mp h))) (noFlush0_4 t (fun h => h1 ((hcond0_1 t).mp h)))]
    rw [outsAt0_A m c t h0 h1]
    unfold sout0_A_0; (try dsimp only)
    have hΦ : PhiS m c t.val (Nat.le_of_lt t.isLt) ⊢ iprop(iprop((∃ d, owns (c : Thread nD τ) scM0_0 fullShare d)) ∗ (∃ r, prngReg c r)) := by
      by_cases hz : t.val = 0
      · rw [PhiS_zero m c _ _ hz, PhiA0_eq]
      · rw [PhiS_pos m c _ _ hz]
        iintro ⟨HS0, Hg⟩
        isplitl [HS0]; · iexists _; iexact HS0
        iexact Hg
    rw [PhiS_castSucc m c t]
    iintro ⟨HΦ, Ho, ⟨%d0, H0⟩, ⟨%d1, H1⟩, ⟨%d2, H2⟩, ⟨%d3, H3⟩, ⟨%d4, H4⟩⟩
    ihave HΦ' := hΦ $$ HΦ
    icases HΦ' with ⟨HS0, Hg⟩
    iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)).2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    by_cases h1 : t.val % 4 = 3
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the accumulator's contents are forgotten. -/
theorem hout (c : Dev nD) : (dats m 0 c).Φ (Fin.last cfg0.N) ⊢ Pipeline.ΦA spec0 c := by
  have ht : (Fin.last cfg0.N).val ≠ 0 := by rw [Fin.val_last]; have : cfg0.N = 32 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨HS0, Hg⟩
  isplitl [HS0]
  · iexists _; iexact HS0
  iexact Hg

end Cert.KernelIdeal.Hand

end
-- ==== Proof.KI.PieceValues.lean ====
/-
  What each case leaves, as the body's arithmetic: with `pay` the block's row sums added to an accumulator
  (`k0_pay2`) and `zero` the reset value (`k0_pay1`), a point with `j = 0` leaves `pay zero` in the
  accumulator, a later point leaves `pay` of what the point before left, and at `j = 3` the output block's
  staging buffer receives the same.
-/
import proofs.«168529_j5815385719271_2_alg».proof.Proof.KI.Pieces
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := by funext a; match a with | ⟨0, _⟩ => rfl | ⟨1, _⟩ => rfl

theorem sout0_B_0_eq (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x256 .bf16) (x1 : Vec F S2048x256 .bf16) (x2 : Vec F S1024x1 .i32) (x3 : Vec F S1x2048 .i32) (xs0 : Vec F S1024x1 .f32) :
    sout0_B_0 c i arg2 harg2 arg3 harg3 arg4 harg4 arg5 harg5 arg6 harg6 arg7 harg7 hc0 hc1 x0 x1 x2 x3 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  rw [View.canon_unit_zero hz2]
  simp only [View.readAt_eq_ld, harg2.read_unread, harg3.read_unread, harg4.read_unread, harg5.read_unread, harg6.read_unread, harg7.read_unread,
    View.ld_unit_zero (S := S1024x256) hz2, View.ld_unit_zero (S := S2048x256) hz2, View.ld_unit_zero (S := S1024x1) hz2, View.ld_unit_zero (S := S1x2048) hz2]

theorem sout0_C_0_eq (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x256 .bf16) (x1 : Vec F S2048x256 .bf16) (x2 : Vec F S1024x1 .i32) (x3 : Vec F S1x2048 .i32) (xs0 : Vec F S1024x1 .f32) :
    sout0_C_0 c i arg2 harg2 arg3 harg3 arg4 harg4 arg5 harg5 arg6 harg6 arg7 harg7 hc0 hc1 x0 x1 x2 x3 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  simp only [View.readAt_eq_ld, harg2.read_unread, harg3.read_unread, harg4.read_unread, harg5.read_unread, harg6.read_unread, harg7.read_unread,
    View.ld_unit_zero (S := S1024x256) hz2, View.ld_unit_zero (S := S2048x256) hz2, View.ld_unit_zero (S := S1024x1) hz2, View.ld_unit_zero (S := S1x2048) hz2,
    View.readCov_unit_zero (S := S1024x1) _ hz2, View.canon_unit_zero (S := S1024x1) hz2, View.canon_cons_unit_zero (S := S1024x1) hz2]

theorem out0_C_4_eq (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x256 .bf16) (x1 : Vec F S2048x256 .bf16) (x2 : Vec F S1024x1 .i32) (x3 : Vec F S1x2048 .i32) (xs0 : Vec F S1024x1 .f32) :
    out0_C_4 c i arg2 harg2 arg3 harg3 arg4 harg4 arg5 harg5 arg6 harg6 arg7 harg7 hc0 hc1 x0 x1 x2 x3 xs0 = k0_pay2 x0 x1 x2 x3 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  simp only [View.readAt_eq_ld, harg2.read_unread, harg3.read_unread, harg4.read_unread, harg5.read_unread, harg6.read_unread, harg7.read_unread,
    View.ld_unit_zero (S := S1024x256) hz2, View.ld_unit_zero (S := S2048x256) hz2, View.ld_unit_zero (S := S1024x1) hz2, View.ld_unit_zero (S := S1x2048) hz2,
    View.readCov_unit_zero (S := S1024x1) _ hz2, View.canon_unit_zero (S := S1024x1) hz2, View.canon_cons_unit_zero (S := S1024x1) hz2]

theorem sout0_A_0_eq (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x256 .bf16) (x1 : Vec F S2048x256 .bf16) (x2 : Vec F S1024x1 .i32) (x3 : Vec F S1x2048 .i32) :
    sout0_A_0 c i arg2 harg2 arg3 harg3 arg4 harg4 arg5 harg5 arg6 harg6 arg7 harg7 hc0 hc1 x0 x1 x2 x3 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  simp only [View.readAt_eq_ld, harg2.read_unread, harg3.read_unread, harg4.read_unread, harg5.read_unread, harg6.read_unread, harg7.read_unread,
    View.ld_unit_zero (S := S1024x256) hz2, View.ld_unit_zero (S := S2048x256) hz2, View.ld_unit_zero (S := S1024x1) hz2, View.ld_unit_zero (S := S1x2048) hz2,
    View.readCov_unit_zero (S := S1024x1) _ hz2, View.canon_unit_zero (S := S1024x1) hz2, View.canon_cons_unit_zero (S := S1024x1) hz2]

end Cert.KernelIdeal.Hand

end
-- ==== Proof.KI.BlockReads.lean ====
/-
  The windows' blocks and the arrays the region finds, read at an index.

  The grid is 8 × 4, row-major: point `t` has block row `t / 4` and block column `t % 4`. Window 0 is rows
  `1024 · (t / 4) …` of the [8192, 256] array, window 1 is rows `2048 · (t % 4) …` of the same array, window 2 is rows
  `1024 · (t / 4) …` of the [8192, 1] label column, window 3 is columns `2048 · (t % 4) …` of the [1, 8192] label
  row: an element of a block sits in its array, on each axis, at the block index times the block's size plus its own
  coordinate. The label column and the label row are reshapes of the label vector, so each reads the vector at
  the one coordinate that is not a unit axis's; the [8192, 256] array is the input array with its float format
  changed, which at the ideal values is the identity.
-/
import proofs.«168529_j5815385719271_2_alg».proof.Proof.KI.Kit
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen Idealize.ShloMosaic Idealize.ShloMosaic.TcCoe Idealize.ShloMosaic.ValueIdx
open Idealize.ShloMosaic.Tactic

/-! ## The block indices, decided over the grid -/

theorem idx0 : ∀ t : Fin cfg0.N, win0_0.index t (0 : Fin 2) = t.val / 4 ∧ win0_0.index t (1 : Fin 2) = 0 :=
  (by decide +kernel : ∀ t : Fin grid0.N, win0_0.index t (0 : Fin 2) = t.val / 4 ∧ win0_0.index t (1 : Fin 2) = 0)
theorem idx1 : ∀ t : Fin cfg0.N, win0_1.index t (0 : Fin 2) = t.val % 4 ∧ win0_1.index t (1 : Fin 2) = 0 :=
  (by decide +kernel : ∀ t : Fin grid0.N, win0_1.index t (0 : Fin 2) = t.val % 4 ∧ win0_1.index t (1 : Fin 2) = 0)
theorem idx2 : ∀ t : Fin cfg0.N, win0_2.index t (0 : Fin 2) = t.val / 4 ∧ win0_2.index t (1 : Fin 2) = 0 :=
  (by decide +kernel : ∀ t : Fin grid0.N, win0_2.index t (0 : Fin 2) = t.val / 4 ∧ win0_2.index t (1 : Fin 2) = 0)
theorem idx3 : ∀ t : Fin cfg0.N, win0_3.index t (0 : Fin 2) = 0 ∧ win0_3.index t (1 : Fin 2) = t.val % 4 :=
  (by decide +kernel : ∀ t : Fin grid0.N, win0_3.index t (0 : Fin 2) = 0 ∧ win0_3.index t (1 : Fin 2) = t.val % 4)

section Any

variable {F : FTy → Type} [FloatOps F]
variable (m : (ℓ : Loc nD τ sig) → Buf (Elt F) ℓ) (c : Dev nD) (t : Fin cfg0.N)

/-! ## Each block at an index -/

/-- Window 0's block at `(r, d)`: row `1024 · (t / 4) + r` of the array. -/
theorem iblk0_apply (r : Fin 1024) (d : Fin 256) :
    iblk m c 0 t (ix2 r d) = V m c main_v0 (ix2 ⟨1024 * (t.val / 4) + r.val, by have := t.isLt; have : cfg0.N = 32 := N_0; omega⟩ d) := by
  obtain ⟨e0, e1⟩ := idx0 t
  unfold iblk
  rw [View.read_apply]
  show V m c main_v0 (((cfg0.win 0).blk t).view.emb (ix2 r d)) = V m c main_v0 _
  refine congrArg (V m c main_v0) (funext fun a => Fin.ext ?_)
  match a with
  | ⟨0, _⟩ => show win0_0.index t (0 : Fin 2) * 1024 + 1 * r.val = 1024 * (t.val / 4) + r.val; omega
  | ⟨1, _⟩ => show win0_0.index t (1 : Fin 2) * 256 + 1 * d.val = d.val; omega

/-- Window 1's block at `(k, d)`: row `2048 · (t % 4) + k` of the same array. -/
theorem iblk1_apply (k : Fin 2048) (d : Fin 256) :
    iblk m c 1 t (ix2 k d) = V m c main_v0 (ix2 ⟨2048 * (t.val % 4) + k.val, by omega⟩ d) := by
  obtain ⟨e0, e1⟩ := idx1 t
  unfold iblk
  rw [View.read_apply]
  show V m c main_v0 (((cfg0.win 1).blk t).view.emb (ix2 k d)) = V m c main_v0 _
  refine congrArg (V m c main_v0) (funext fun a => Fin.ext ?_)
  match a with
  | ⟨0, _⟩ => show win0_1.index t (0 : Fin 2) * 2048 + 1 * k.val = 2048 * (t.val % 4) + k.val; omega
  | ⟨1, _⟩ => show win0_1.index t (1 : Fin 2) * 256 + 1 * d.val = d.val; omega

/-- Window 2's block at `(r, 0)`: row `1024 · (t / 4) + r` of the label column. -/
theorem iblk2_apply (r : Fin 1024) :
    iblk m c 2 t (ix2 r 0) = V m c main_v1 (ix2 ⟨1024 * (t.val / 4) + r.val, by have := t.isLt; have : cfg0.N = 32 := N_0; omega⟩ 0) := by
  obtain ⟨e0, e1⟩ := idx2 t
  unfold iblk
  rw [View.read_apply]
  show V m c main_v1 (((cfg0.win 2).blk t).view.emb (ix2 r 0)) = V m c main_v1 _
  refine congrArg (V m c main_v1) (funext fun a => Fin.ext ?_)
  match a with
  | ⟨0, _⟩ => show win0_2.index t (0 : Fin 2) * 1024 + 1 * r.val = 1024 * (t.val / 4) + r.val; omega
  | ⟨1, _⟩ => show win0_2.index t (1 : Fin 2) * 1 + 1 * 0 = 0; omega

/-- Window 3's block at `(0, k)`: column `2048 · (t % 4) + k` of the label row. -/
theorem iblk3_apply (k : Fin 2048) :
    iblk m c 3 t (ix2 0 k) = V m c main_v2 (ix2 0 ⟨2048 * (t.val % 4) + k.val, by omega⟩) := by
  obtain ⟨e0, e1⟩ := idx3 t
  unfold iblk
  rw [View.read_apply]
  show V m c main_v2 (((cfg0.win 3).blk t).view.emb (ix2 0 k)) = V m c main_v2 _
  refine congrArg (V m c main_v2) (funext fun a => Fin.ext ?_)
  match a with
  | ⟨0, _⟩ => show win0_3.index t (0 : Fin 2) * 1 + 1 * 0 = 0; omega
  | ⟨1, _⟩ => show win0_3.index t (1 : Fin 2) * 2048 + 1 * k.val = 2048 * (t.val % 4) + k.val; omega

/-! ## The arrays the host operations wrote, at an index -/

/-- The label column is the label vector reshaped: row `i` reads the vector at `i`. -/
theorem V_main_v1_apply (i : Fin 8192) : V m c main_v1 (ix2 i 0) = m ((c : Thread nD τ).loc main_arg1) (ix1 i) := by
  have e : (V m c main_v1 : S8192x1.Idx → BitVec 32)
      = shapeCast S8192x1 (m ((c : Thread nD τ).loc main_arg1) : S8192.Idx → BitVec 32) shapeCasts_S8192_S8192x1 := by
    dsimp only [V, V0]
    simp only [hostOps0, List.flatten_cons, List.flatten_nil, List.append_nil]
    after_results
    rfl
  refine (congrFun e (ix2 i 0)).trans ?_
  exact shapeCast_apply _ _ (ix2 i (0 : Fin 1)) (ix1 i) (by
    rw [Shape.rowMajor_val_two, Shape.rowMajor_val_one]
    show i.val = i.val * 1 + 0
    omega)

/-- The label row is the label vector reshaped: column `k` reads the vector at `k`. -/
theorem V_main_v2_apply (k : Fin 8192) : V m c main_v2 (ix2 0 k) = m ((c : Thread nD τ).loc main_arg1) (ix1 k) := by
  have e : (V m c main_v2 : S1x8192.Idx → BitVec 32)
      = shapeCast S1x8192 (m ((c : Thread nD τ).loc main_arg1) : S8192.Idx → BitVec 32) shapeCasts_S8192_S1x8192 := by
    dsimp only [V, V0]
    simp only [hostOps0, List.flatten_cons, List.flatten_nil, List.append_nil]
    after_results
    rfl
  refine (congrFun e (ix2 0 k)).trans ?_
  exact shapeCast_a_1a_apply _ shapeCasts_S8192_S1x8192 (0 : Fin 1) k

end Any

/-! ## At the ideal values -/

section AtIdeal

variable (m : (ℓ : Loc nD τ sig) → Buf (Elt Ideal) ℓ) (c : Dev nD)

/-- The [8192, 256] array the region finds is the input array: the change of float format is the identity. -/
theorem V_main_v0_apply (i : Fin 8192) (d : Fin 256) :
    V m c main_v0 (ix2 i d) = m ((c : Thread nD τ).loc main_arg0) (ix2 i d) := by
  have e : (V m c main_v0 : S8192x256.Idx → Ideal .bf16)
      = truncf (F := Ideal) (s := S8192x256) (φ := .f32) .bf16 (m ((c : Thread nD τ).loc main_arg0)) bitsLt_bf16_f32 := by
    dsimp only [V, V0]
    simp only [hostOps0, List.flatten_cons, List.flatten_nil, List.append_nil]
    after_results
  exact congrFun e (ix2 i d)

end AtIdeal

end Cert.KernelIdeal.Hand

end
-- ==== Proof.Spec.lean ====
/-
  The quantity both programs compute, as one function of the argument arrays over the extended reals.

  For rows `x_i` of an 8192 × 256 array `X` and labels `T`, with `s(i,k) = ∑_d X(i,d) · X(k,d)` the inner
  product of rows `i` and `k`: a pair with equal labels contributes the hinge `max (1 - s) 0`, a pair with
  different labels contributes `s` when `s` exceeds the margin and `0` otherwise; the result is the sum over
  all ordered pairs divided by the number of rows. The float literals stay the binary words the programs
  spell (the same words on both sides), so none is ever evaluated.
-/
import Idealize.ShloMosaic.PureOps.Ideal
import Idealize.ShloMosaic.Lib.ValueIdx

noncomputable section

namespace Cert.Loss

open Idealize.ShloMosaic Idealize.ShloMosaic.ValueIdx

/-- The literals: zero, one, the margin, the row count. -/
abbrev c0 : EReal := Ideal.ofBits .f32 0x00000000#32
abbrev c1 : EReal := Ideal.ofBits .f32 0x3F800000#32
abbrev cm : EReal := Ideal.ofBits .f32 0x3E99999A#32
abbrev cn : EReal := Ideal.ofBits .f32 0x46000000#32

/-- The inner product of rows `i` and `k`. -/
def sim (X : (⟨2, ![8192, 256]⟩ : Shape).Idx → EReal) (i k : Fin 8192) : EReal :=
  ∑ d : Fin 256, X (ix2 i d) * X (ix2 k d)

/-- One pair's contribution, from the bit that says whether the labels agree and the inner product. -/
def term (same : BitVec 1) (s : EReal) : EReal :=
  Scalar.select same (max (c1 - s) c0) (Scalar.select (Ideal.cmp .ogt s cm) s c0)

/-- The contribution of the ordered pair `(i, k)`. -/
def val (X : (⟨2, ![8192, 256]⟩ : Shape).Idx → EReal) (T : (⟨1, ![8192]⟩ : Shape).Idx → BitVec 32) (i k : Fin 8192) : EReal :=
  term (IntOp.cmpi .eq (T (ix1 i)) (T (ix1 k))) (sim X i k)

/-- Row `i`'s sum over all partners. -/
def rowSum (X : (⟨2, ![8192, 256]⟩ : Shape).Idx → EReal) (T : (⟨1, ![8192]⟩ : Shape).Idx → BitVec 32) (i : Fin 8192) : EReal :=
  ∑ k : Fin 8192, val X T i k

/-- The sum over all ordered pairs. -/
def total (X : (⟨2, ![8192, 256]⟩ : Shape).Idx → EReal) (T : (⟨1, ![8192]⟩ : Shape).Idx → BitVec 32) : EReal :=
  ∑ i : Fin 8192, rowSum X T i

/-- The result: the total divided by the row count, as a rank-0 array. -/
def G (X : (⟨2, ![8192, 256]⟩ : Shape).Idx → EReal) (T : (⟨1, ![8192]⟩ : Shape).Idx → BitVec 32) :
    (⟨0, ![]⟩ : Shape).Idx → EReal :=
  fun _ => Ideal.div (total X T) cn

end Cert.Loss

end
-- ==== Proof.PayValue.lean ====
/-
  The kernel's arithmetic at the ideal values, read at an index: pure statements over variables.

  One step of the kernel adds, to row `r` of its accumulator, the sum over the 2048 columns `k'` of the block of
  one pair's contribution: with `s = ∑_d x0(r,d) · x1(k',d)` the inner product of row `r` of the left block and row `k'`
  of the right block (the matmul contracts the second axis of both operands into a zero accumulator), and the bit
  `x2(r,0) = x3(0,k')` saying whether the two labels agree, the contribution is the hinge `max (1 - s) 0` for equal
  labels, and `s` above the margin, else `0`, for different ones. The first step's store is zero everywhere. The tail
  of the program sums an [8192, 1] array over both axes and divides by the row count.
-/
import proofs.«168529_j5815385719271_2_alg».proof.Proof.Gen.KernelIdeal.Skeleton
import proofs.«168529_j5815385719271_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.Loss.Pay

open Cert.KernelIdeal Cert.KernelIdeal.Gen Idealize.ShloMosaic Idealize.ShloMosaic.ValueIdx

/-! ## Layout operations at an index: the column forms -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The matmul at an index -/

theorem lhs_0 (i : S1024x2048.Idx) (q : dot_S1024x256_S2048x256_S1024x2048_1_1_0_0_n_n.contr.Idx) :
    (dot_S1024x256_S2048x256_S1024x2048_1_1_0_0_n_n.lhsIdx i q 0).val = (i 0).val := by
  unfold DotDims.lhsIdx
  rw [dif_neg (show ¬(0 : Fin S1024x256.rank) ∈ dot_S1024x256_S2048x256_S1024x2048_1_1_0_0_n_n.lhsBatch by decide), dif_pos (show (0 : Fin S1024x256.rank) ∈ dot_S1024x256_S2048x256_S1024x2048_1_1_0_0_n_n.lhsNonContracting by decide)]
  rfl
theorem lhs_1 (i : S1024x2048.Idx) (q : dot_S1024x256_S2048x256_S1024x2048_1_1_0_0_n_n.contr.Idx) :
    (dot_S1024x256_S2048x256_S1024x2048_1_1_0_0_n_n.lhsIdx i q 1).val = (q ⟨0, by decide⟩).val :=
  dot_S1024x256_S2048x256_S1024x2048_1_1_0_0_n_n.lhsIdx_val_of_single rfl i q
theorem rhs_0 (i : S1024x2048.Idx) (q : dot_S1024x256_S2048x256_S1024x2048_1_1_0_0_n_n.contr.Idx) :
    (dot_S1024x256_S2048x256_S1024x2048_1_1_0_0_n_n.rhsIdx i q 0).val = (i 1).val := by
  unfold DotDims.rhsIdx
  rw [dif_neg (show ¬(0 : Fin S2048x256.rank) ∈ dot_S1024x256_S2048x256_S1024x2048_1_1_0_0_n_n.rhsBatch by decide), dif_pos (show (0 : Fin S2048x256.rank) ∈ dot_S1024x256_S2048x256_S1024x2048_1_1_0_0_n_n.rhsNonContracting by decide)]
  rfl
theorem rhs_1 (i : S1024x2048.Idx) (q : dot_S1024x256_S2048x256_S1024x2048_1_1_0_0_n_n.contr.Idx) :
    (dot_S1024x256_S2048x256_S1024x2048_1_1_0_0_n_n.rhsIdx i q 1).val = (q ⟨0, by decide⟩).val :=
  dot_S1024x256_S2048x256_S1024x2048_1_1_0_0_n_n.rhsIdx_val_of_single rfl i q

/-- The matmul into the zero accumulator, at `(r, k')`: the inner product of row `r` of the left operand and row `k'`
    of the right one. -/
theorem matmul_at (x0 : FVec Ideal S1024x256 .bf16) (x1 : FVec Ideal S2048x256 .bf16) (r : Fin 1024) (k' : Fin 2048) :
    matmul dot_S1024x256_S2048x256_S1024x2048_1_1_0_0_n_n none x0 x1 (constant (F := Ideal) S1024x2048 .f32 0x00000000#32) (ix2 r k')
      = ∑ d : Fin 256, x0 (ix2 r d) * x1 (ix2 k' d) := by
  refine (Ideal.matmul_constant_zero_apply dot_S1024x256_S2048x256_S1024x2048_1_1_0_0_n_n none x0 x1 (ix2 r k')).trans ?_
  rw [← Equiv.sum_comp (ValueIdx.contrEquiv1 dot_S1024x256_S2048x256_S1024x2048_1_1_0_0_n_n 256 rfl rfl).symm]
  refine Finset.sum_congr rfl fun d _ => ?_
  have hk := ValueIdx.contrEquiv1_symm_val dot_S1024x256_S2048x256_S1024x2048_1_1_0_0_n_n 256 rfl rfl d
  have el : dot_S1024x256_S2048x256_S1024x2048_1_1_0_0_n_n.lhsIdx (ix2 r k') ((ValueIdx.contrEquiv1 dot_S1024x256_S2048x256_S1024x2048_1_1_0_0_n_n 256 rfl rfl).symm d) = ix2 r d := funext fun a => Fin.ext (by
    match a with
    | ⟨0, _⟩ => exact lhs_0 _ _
    | ⟨1, _⟩ => exact (lhs_1 _ _).trans hk)
  have er : dot_S1024x256_S2048x256_S1024x2048_1_1_0_0_n_n.rhsIdx (ix2 r k') ((ValueIdx.contrEquiv1 dot_S1024x256_S2048x256_S1024x2048_1_1_0_0_n_n 256 rfl rfl).symm d) = ix2 k' d := funext fun a => Fin.ext (by
    match a with
    | ⟨0, _⟩ => exact rhs_0 _ _
    | ⟨1, _⟩ => exact (rhs_1 _ _).trans hk)
  rw [el, er]

/-! ## The lane sum at an index -/

/-- The sum over the columns, into `[1024]`, at `r`: the hypotheses typed as the printed proofs are. -/
theorem rowsum_at (src : FVec Ideal S1024x2048 .f32) (hφ : FKind.Formats .f32)
    (hacc : (0x00000000#32 : BitVec 32) = 0x00000000#32) (r : Fin 1024) :
    multiReduction (F := Ideal) .add [1] S1024 src 0x00000000#32 reduces_S1024x2048_S1024 hφ hacc (ix1 r)
      = ∑ k' : Fin 2048, src (ix2 r k') := by
  refine (Ideal.multiReduction_add_single src 0x00000000#32 reduces_S1024x2048_S1024 hφ hacc (ix1 r)).trans ?_
  refine Finset.sum_congr rfl fun k' _ => ?_
  exact congrArg src (funext fun a => Fin.ext (by match a with | ⟨0, _⟩ => rfl | ⟨1, _⟩ => rfl))

/-! ## The payloads -/

/-- The first step's store is zero at every index. -/
theorem pay1_apply (j : S1024x1.Idx) : k0_pay1 (F := Ideal) j = 0 := by
  unfold k0_pay1
  refine (congrFun (shapeCast_self _ _) j).trans ?_
  exact Ideal.ofBits_zero_f32

/-- One step's store at row `r`: the accumulator there plus the sum over the block's columns of each pair's
    contribution. -/
theorem pay2_apply (x0 : Vec Ideal S1024x256 .bf16) (x1 : Vec Ideal S2048x256 .bf16) (x2 : Vec Ideal S1024x1 .i32)
    (x3 : Vec Ideal S1x2048 .i32) (acc : Vec Ideal S1024x1 .f32) (r : Fin 1024) :
    k0_pay2 (F := Ideal) x0 x1 x2 x3 acc (ix2 r 0)
      = acc (ix2 r 0) + ∑ k' : Fin 2048,
          Cert.Loss.term (IntOp.cmpi .eq (x2 (ix2 r 0)) (x3 (ix2 0 k'))) (∑ d : Fin 256, x0 (ix2 r d) * x1 (ix2 k' d)) := by
  unfold k0_pay2
  -- the outer cast to the same shape is the identity; the sum `acc + …` is read pointwise
  refine (congrFun (shapeCast_self _ _) (ix2 r 0)).trans ?_
  refine congrArg (acc (ix2 r 0) + ·) ?_
  -- the [1024] row sums viewed as a column, then the lane sum
  refine (shapeCast_a_a1_apply _ _ r 0).trans ?_
  refine (rowsum_at _ _ _ r).trans ?_
  refine Finset.sum_congr rfl fun k' _ => ?_
  -- one element of the block: the inner product and the two labels
  have hs : matmul (φ₁ := .bf16) (φ₂ := .bf16) dot_S1024x256_S2048x256_S1024x2048_1_1_0_0_n_n none
        (shapeCast (α := Ideal .bf16) S1024x256 x0 shapeCasts_S1024x256_S1024x256)
        (shapeCast (α := Ideal .bf16) S2048x256 x1 shapeCasts_S2048x256_S2048x256)
        (constant (F := Ideal) S1024x2048 .f32 0x00000000#32) (ix2 r k')
      = ∑ d : Fin 256, x0 (ix2 r d) * x1 (ix2 k' d) := by
    rw [shapeCast_self, shapeCast_self]
    exact matmul_at x0 x1 r k'
  have h2 : broadcastTo S1024x2048 (shapeCast S1024x1 x2 shapeCasts_S1024x1_S1024x1) broadcasts_S1024x1_S1024x2048 (ix2 r k')
      = x2 (ix2 r 0) := by
    rw [shapeCast_self]
    exact broadcastTo_a1_ab_apply x2 broadcasts_S1024x1_S1024x2048 r k'
  have h3 : broadcastTo S1024x2048 (shapeCast S1x2048 x3 shapeCasts_S1x2048_S1x2048) broadcasts_S1x2048_S1024x2048 (ix2 r k')
      = x3 (ix2 0 k') := by
    rw [shapeCast_self]
    exact broadcastTo_1b_ab_apply x3 broadcasts_S1x2048_S1024x2048 r k'
  exact congrArg₂ Cert.Loss.term (congrArg₂ (IntOp.cmpi .eq) h2 h3) hs

end Cert.Loss.Pay

end
-- ==== Proof.SumBlocks.lean ====
/-
  Regrouping a sum over 8192 indices into blocks: four blocks of 2048 columns, eight blocks of 1024 rows.
  An index below 8192 is uniquely `n * j + k'` with `k' < n`; the bijection is Mathlib's `finProdFinEquiv`.
-/
import Mathlib.Algebra.BigOperators.Fin
import Mathlib.Algebra.BigOperators.Group.Finset.Sigma
import Mathlib.Logic.Equiv.Fin.Basic
import Mathlib.Data.EReal.Basic

namespace Cert.Loss.Pay

/-- A sum over `Fin 8192` is the sum over four blocks of 2048 consecutive indices. -/
theorem sum_cols (f : Fin 8192 → EReal) :
    ∑ k : Fin 8192, f k = ∑ j : Fin 4, ∑ k' : Fin 2048, f ⟨2048 * j.val + k'.val, by omega⟩ := by
  refine (Equiv.sum_comp (finProdFinEquiv (m := 4) (n := 2048)) f).symm.trans ?_
  refine (Fintype.sum_prod_type _).trans ?_
  refine Finset.sum_congr rfl fun j _ => Finset.sum_congr rfl fun k' _ => ?_
  exact congrArg f (Fin.ext (Nat.add_comm _ _))

/-- A sum over `Fin 8192` is the sum over eight blocks of 1024 consecutive indices. -/
theorem sum_rows (g : Fin 8192 → EReal) :
    ∑ i : Fin 8192, g i = ∑ a : Fin 8, ∑ r : Fin 1024, g ⟨1024 * a.val + r.val, by omega⟩ := by
  refine (Equiv.sum_comp (finProdFinEquiv (m := 8) (n := 1024)) g).symm.trans ?_
  refine (Fintype.sum_prod_type _).trans ?_
  refine Finset.sum_congr rfl fun a _ => Finset.sum_congr rfl fun r _ => ?_
  exact congrArg g (Fin.ext (Nat.add_comm _ _))

end Cert.Loss.Pay
-- ==== Proof.KI.AccValue.lean ====
/-
  What the accumulator holds after each grid point, at the extended reals.

  With `X` the input array and `T` the labels as launched, block row `i = t / 4` and block column `j = t % 4`:
  one run of the body adds to each row `r` of the accumulator the contributions of the 2048 partners of block
  column `j` to global row `1024·i + r` (`rowBlk`); so after point `t` the accumulator's row `r` is the sum of
  `rowBlk` over the block columns `0 … j`, and after the last point of a block row it is the row's whole sum.
-/
import proofs.«168529_j5815385719271_2_alg».proof.Proof.KI.Frame
import proofs.«168529_j5815385719271_2_alg».proof.Proof.KI.PieceValues
import proofs.«168529_j5815385719271_2_alg».proof.Proof.KI.BlockReads
import proofs.«168529_j5815385719271_2_alg».proof.Proof.PayValue
import proofs.«168529_j5815385719271_2_alg».proof.Proof.SumBlocks
import proofs.«168529_j5815385719271_2_alg».proof.Proof.Spec

set_option maxRecDepth 16384

noncomputable section

namespace Cert.KernelIdeal.Hand

open Cert.KernelIdeal Cert.KernelIdeal.Gen Cert.Loss
open Idealize.ShloMosaic Idealize.ShloMosaic.TcCoe Idealize.ShloMosaic.ValueIdx
open Idealize.SL.Sem

/-- The contributions to row `i` of the partners in block column `j` (zero outside the ranges). -/
def rowBlk (X : (⟨2, ![8192, 256]⟩ : Shape).Idx → EReal) (T : (⟨1, ![8192]⟩ : Shape).Idx → BitVec 32) (i j : ℕ) : EReal :=
  if h : i < 8192 ∧ j < 4 then ∑ k' : Fin 2048, val X T ⟨i, h.1⟩ ⟨2048 * j + k'.val, by omega⟩ else 0

/-- A row's sum is the sum of its four block columns. -/
theorem rowSum_eq_blocks (X : (⟨2, ![8192, 256]⟩ : Shape).Idx → EReal) (T : (⟨1, ![8192]⟩ : Shape).Idx → BitVec 32) (i : Fin 8192) :
    ∑ j ∈ Finset.range 4, rowBlk X T i.val j = rowSum X T i := by
  unfold rowSum
  rw [Cert.Loss.Pay.sum_cols (fun k => val X T i k), Finset.sum_range]
  refine Finset.sum_congr rfl fun j _ => ?_
  unfold rowBlk
  rw [dif_pos ⟨i.isLt, j.isLt⟩]

/-- One run of the body, over blocks that are the arrays' blocks at block row `a` and block column `j`. -/
theorem step_apply (X : (⟨2, ![8192, 256]⟩ : Shape).Idx → EReal) (T : (⟨1, ![8192]⟩ : Shape).Idx → BitVec 32)
    (a j : ℕ) (ha : a < 8) (hj : j < 4)
    (x0 : Vec Ideal S1024x256 .bf16) (x1 : Vec Ideal S2048x256 .bf16) (x2 : Vec Ideal S1024x1 .i32) (x3 : Vec Ideal S1x2048 .i32) (acc : Vec Ideal S1024x1 .f32)
    (h0 : ∀ (r : Fin 1024) (d : Fin 256), x0 (ix2 r d) = X (ix2 ⟨1024 * a + r.val, by omega⟩ d))
    (h1 : ∀ (k : Fin 2048) (d : Fin 256), x1 (ix2 k d) = X (ix2 ⟨2048 * j + k.val, by omega⟩ d))
    (h2 : ∀ r : Fin 1024, x2 (ix2 r 0) = T (ix1 ⟨1024 * a + r.val, by omega⟩))
    (h3 : ∀ k : Fin 2048, x3 (ix2 0 k) = T (ix1 ⟨2048 * j + k.val, by omega⟩))
    (r : Fin 1024) :
    k0_pay2 (F := Ideal) x0 x1 x2 x3 acc (ix2 r 0) = acc (ix2 r 0) + rowBlk X T (1024 * a + r.val) j := by
  rw [Cert.Loss.Pay.pay2_apply]
  refine congrArg (acc (ix2 r 0) + ·) ?_
  unfold rowBlk
  rw [dif_pos ⟨by omega, hj⟩]
  refine Finset.sum_congr rfl fun k' _ => ?_
  unfold val sim
  rw [h2, h3]
  refine congrArg (term _) (Finset.sum_congr rfl fun d _ => ?_)
  rw [h0, h1]

variable (m : (ℓ : Loc nD τ sig) → Buf (Elt Ideal) ℓ) (c : Dev nD)

/-- The input array and the labels as launched. -/
abbrev X0 : (⟨2, ![8192, 256]⟩ : Shape).Idx → EReal := m ((c : Thread nD τ).loc main_arg0)
abbrev T0 : (⟨1, ![8192]⟩ : Shape).Idx → BitVec 32 := m ((c : Thread nD τ).loc main_arg1)

/-- The body's arithmetic at point `t`, on the windows' blocks there. -/
theorem step_at (t : Fin cfg0.N) (acc : Vec Ideal S1024x1 .f32) (r : Fin 1024) :
    k0_pay2 (F := Ideal) (iblk m c 0 t) (iblk m c 1 t) (iblk m c 2 t) (iblk m c 3 t) acc (ix2 r 0)
      = acc (ix2 r 0) + rowBlk (X0 m c) (T0 m c) (1024 * (t.val / 4) + r.val) (t.val % 4) := by
  have hN : cfg0.N = 32 := N_0
  have ht := t.isLt
  exact step_apply (X0 m c) (T0 m c) (t.val / 4) (t.val % 4) (by omega) (by omega) _ _ _ _ acc
    (fun r d => (iblk0_apply m c t r d).trans (V_main_v0_apply m c _ d))
    (fun k d => (iblk1_apply m c t k d).trans (V_main_v0_apply m c _ d))
    (fun r => (iblk2_apply m c t r).trans (V_main_v1_apply m c _))
    (fun k => (iblk3_apply m c t k).trans (V_main_v2_apply m c _)) r

/-- After point `t` the accumulator's row `r` holds the contributions of block columns `0 … t % 4`. -/
theorem acc_apply (n : ℕ) (hn : n < cfg0.N) (r : Fin 1024) :
    (outsAt0 m c n hn).2 (ix2 r 0) = ∑ j ∈ Finset.range (n % 4 + 1), rowBlk (X0 m c) (T0 m c) (1024 * (n / 4) + r.val) j := by
  induction n using Nat.strong_induction_on with
  | _ n ih =>
    by_cases h0 : n % 4 = 0
    · have h1 : ¬n % 4 = 3 := by omega
      have e := outsAt0_A m c ⟨n, hn⟩ h0 h1
      dsimp only at e
      rw [e]
      dsimp only
      rw [sout0_A_0_eq]
      refine (step_at m c ⟨n, hn⟩ _ r).trans ?_
      dsimp only
      rw [Cert.Loss.Pay.pay1_apply, zero_add, h0, Finset.sum_range_one]
    · have hz : n ≠ 0 := fun h => h0 (by rw [h])
      have e1 : (n - 1) / 4 = n / 4 := by omega
      have e2 : (n - 1) % 4 + 1 = n % 4 := by omega
      have hprev := ih (n - 1) (by omega) (by omega)
      rw [e1, e2] at hprev
      by_cases h1 : n % 4 = 3
      · have e := outsAt0_C m c ⟨n, hn⟩ h0 h1
        dsimp only at e
        rw [e]
        dsimp only
        rw [sout0_C_0_eq]
        refine (step_at m c ⟨n, hn⟩ _ r).trans ?_
        dsimp only
        rw [hprev, Finset.sum_range_succ]
      · have e := outsAt0_B m c ⟨n, hn⟩ h0 h1
        dsimp only at e
        rw [e]
        dsimp only
        rw [sout0_B_0_eq]
        refine (step_at m c ⟨n, hn⟩ _ r).trans ?_
        dsimp only
        rw [hprev, Finset.sum_range_succ]

/-- At the last point of a block row the output block's staging buffer holds what the accumulator holds. -/
theorem out_eq_acc (t : Fin cfg0.N) (h1 : t.val % 4 = 3) : (outsAt0 m c t.val t.isLt).1 = (outsAt0 m c t.val t.isLt).2 := by
  have h0 : ¬t.val % 4 = 0 := by omega
  rw [outsAt0_C m c t h0 h1]
  dsimp only
  rw [out0_C_4_eq, sout0_C_0_eq]

/-- So what is written back after the last point of block row `t / 4` is that block row's sums. -/
theorem out_apply (t : Fin cfg0.N) (h1 : t.val % 4 = 3) (r : Fin 1024) :
    (outsAt0 m c t.val t.isLt).1 (ix2 r 0) = rowSum (X0 m c) (T0 m c) ⟨1024 * (t.val / 4) + r.val, by have hN : cfg0.N = 32 := N_0; have := t.isLt; omega⟩ := by
  rw [out_eq_acc m c t h1, acc_apply m c t.val t.isLt r, h1]
  exact rowSum_eq_blocks (X0 m c) (T0 m c) ⟨1024 * (t.val / 4) + r.val, _⟩

end Cert.KernelIdeal.Hand

end
-- ==== Proof.KI.Tail.lean ====
/-
  The two places where the launch meets the arrays.

  Two of the five windows read the same array (the format-changed input): the region holds it once, whole,
  and hands each of the two windows one half of it (`arrays_of_bufs`). After the region the four later host
  operations read the region's result — a whole array at the full share, the output window's — and write
  four scalars that are no window's array; the input arrays' shares are not touched (`tail_run`).
-/
import proofs.«168529_j5815385719271_2_alg».proof.Proof.KI.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the four later host operations compute from the region's result: its sum over every index, from
    zero, divided by the row count. -/
def tailVal (P : (⟨S8192x1, .f32⟩ : BufTy).Contents (Elt F)) : (⟨S_, .f32⟩ : BufTy).Contents (Elt F) :=
  Host.divf (Host.reduceAdd P (constant S_ .f32 0x00000000#32) reducesTo_S8192x1_S_d0_1 h_S_) (constant S_ .f32 0x46000000#32)

/-- What the core holds beside the windows' arrays after the later host operations: the two argument arrays as
    the region found them, the result scalar at `tailVal` of the region's result, three scalars at anything. -/
def Zend (c : Dev nD) (P : (⟨S8192x1, .f32⟩ : BufTy).Contents (Elt F)) : sProp 𝕄 :=
  iprop((((c : Thread nD τ).loc main_arg0) ↦{fullShare} V m c main_arg0) ∗ (((c : Thread nD τ).loc main_arg1) ↦{fullShare} V m c main_arg1)
    ∗ (((c : Thread nD τ).loc main_v5) ↦{fullShare} tailVal (F := F) P)
    ∗ (∃ f, ((c : Thread nD τ).loc main_cst) ↦{fullShare} f) ∗ (∃ f, ((c : Thread nD τ).loc main_v4) ↦{fullShare} f) ∗ (∃ f, ((c : Thread nD τ).loc main_cst_0) ↦{fullShare} f))

variable {c : Dev nD} (dat : Dat τ (Elt F) Unit ℕ (UR sig nD τ) ℕ cfg0 c)

/-- The buffers behind the windows' arrays, each whole at the full share, make the proof data's arrays: the
    shared array is split in two halves. -/
theorem arrays_of_bufs (hq0 : dat.q 0 = fullShare.left) (hq1 : dat.q 1 = fullShare.right) (hq2 : dat.q 2 = fullShare) (hq3 : dat.q 3 = fullShare)
    (Vc : (b : Ref sig .tc) → Buf (Elt F) ((c : Thread nD τ).loc b))
    (Fw : (w : Fin cfg0.W) → Buf (Elt F) ((cfg0.win w).arr.view.loc (c : Thread nD τ))) (hF : ∀ w, Fw w = Vc (Pipeline.arrRef spec0 w)) :
    (Pipeline.arrBufs (Ix := Unit) (Name := ℕ) (U := UR sig nD τ) (Lvl := ℕ) spec0 c Vc : sProp 𝕄) ⊢ dat.arrays Fw := by
  classical
  have s0 : dat.share 0 = fullShare.left := by
    unfold Dat.share; rw [if_neg (show ¬((cfg0.win 0).isOut = true) from Bool.false_ne_true)]; exact hq0
  have s1 : dat.share 1 = fullShare.right := by
    unfold Dat.share; rw [if_neg (show ¬((cfg0.win 1).isOut = true) from Bool.false_ne_true)]; exact hq1
  have s2 : dat.share 2 = fullShare := by
    unfold Dat.share; rw [if_neg (show ¬((cfg0.win 2).isOut = true) from Bool.false_ne_true)]; exact hq2
  have s3 : dat.share 3 = fullShare := by
    unfold Dat.share; rw [if_neg (show ¬((cfg0.win 3).isOut = true) from Bool.false_ne_true)]; exact hq3
  have s4 : dat.share 4 = fullShare := by
    unfold Dat.share; rw [if_pos (show (cfg0.win 4).isOut = true from rfl)]
  have hL : (Pipeline.arrBufs (Ix := Unit) (Name := ℕ) (U := UR sig nD τ) (Lvl := ℕ) spec0 c Vc : sProp 𝕄)
      = iprop((((c : Thread nD τ).loc main_v0) ↦{fullShare} Vc main_v0) ∗ (((c : Thread nD τ).loc main_v1) ↦{fullShare} Vc main_v1)
          ∗ (((c : Thread nD τ).loc main_v2) ↦{fullShare} Vc main_v2) ∗ (((c : Thread nD τ).loc main_v3) ↦{fullShare} Vc main_v3)) := by
    unfold Pipeline.arrBufs
    exact bigSep_eq_bigSepL_of_eq [main_v0, main_v1, main_v2, main_v3] (by decide) (by decide) _
  rw [hL]
  unfold Dat.arrays
  rw [Gen.bigSep_W0]
  simp only [View.set_whole]
  rw [s0, s1, s2, s3, s4, hF 0, hF 1, hF 2, hF 3, hF 4]
  iintro ⟨H0, H1, H2, H3⟩
  ihave H0' := (pointsTo_share (PosShare.mem_left_op_right fullShare)).1 $$ H0
  icases H0' with ⟨Hl, Hr⟩
  isplitl [Hl]; · iexact Hl
  isplitl [Hr]; · iexact Hr
  isplitl [H1]; · iexact H1
  isplitl [H2]; · iexact H2
  iexact H3

/-! ## The later host operations: their buffers, the contents they start from, what they leave -/

/-- The references the four later host operations touch: the region's result and the four scalars. -/
abbrev tailL : List (Ref sig .tc) := [main_v3, main_cst, main_v4, main_cst_0, main_v5]

/-- The device buffers behind them. -/
def tailS : Finset (DevRef τ sig) := tailL.toFinset.map ⟨Proc.devRef (sig := sig) (.tc : Proc τ), Proc.devRef_injective _⟩

theorem mem_tailS {b : Ref sig .tc} (h : b ∈ tailL) : Proc.devRef (τ := τ) .tc b ∈ tailS :=
  Finset.mem_map_of_mem _ (List.mem_toFinset.mpr h)

/-- Every one of the four operations stays within those buffers. -/
theorem hostOps1_tailS : (hostOps1 : List (HloOp τ sig (Elt F))).Forall fun op => op.bufs ⊆ tailS :=
  ⟨Finset.singleton_subset_iff.mpr (mem_tailS (by decide)),
    Finset.insert_subset (mem_tailS (by decide)) (Finset.insert_subset (mem_tailS (by decide)) (Finset.singleton_subset_iff.mpr (mem_tailS (by decide)))),
    Finset.singleton_subset_iff.mpr (mem_tailS (by decide)),
    Finset.insert_subset (mem_tailS (by decide)) (Finset.insert_subset (mem_tailS (by decide)) (Finset.singleton_subset_iff.mpr (mem_tailS (by decide))))⟩

/-- Those buffers held whole at a valuation, one by one. -/
theorem held_tailS (c : Dev nD) (W : Valuation τ sig (Elt F)) :
    (StableHlo.held (c : Thread nD τ) tailS W : sProp 𝕄)
      = iprop((((c : Thread nD τ).loc main_v3) ↦{fullShare} W (Proc.devRef .tc main_v3)) ∗ (((c : Thread nD τ).loc main_cst) ↦{fullShare} W (Proc.devRef .tc main_cst))
          ∗ (((c : Thread nD τ).loc main_v4) ↦{fullShare} W (Proc.devRef .tc main_v4)) ∗ (((c : Thread nD τ).loc main_cst_0) ↦{fullShare} W (Proc.devRef .tc main_cst_0))
          ∗ (((c : Thread nD τ).loc main_v5) ↦{fullShare} W (Proc.devRef .tc main_v5))) := by
  unfold StableHlo.held tailS
  rw [bigSep_map]
  exact bigSep_eq_bigSepL tailL (by decide) _

/-- The contents the later operations start from: the region's result at its buffer, the region-entry contents elsewhere. -/
def tailW (c : Dev nD) (P : (⟨S8192x1, .f32⟩ : BufTy).Contents (Elt F)) : Valuation τ sig (Elt F) :=
  Function.update (V0 m c) (Proc.devRef .tc main_v3) P

theorem tailW_v3 (c : Dev nD) (P : (⟨S8192x1, .f32⟩ : BufTy).Contents (Elt F)) : tailW m c P (Proc.devRef .tc main_v3) = P := by
  unfold tailW; exact Function.update_self ..

theorem tailW_ne (c : Dev nD) (P : (⟨S8192x1, .f32⟩ : BufTy).Contents (Elt F)) {b : Ref sig .tc} (h : b ≠ main_v3) :
    tailW m c P (Proc.devRef .tc b) = V m c b := by
  unfold tailW; exact Function.update_of_ne (StableHlo.devRef_ne_of_ne h) ..

/-- No later operation writes the region's result. -/
theorem after1_v3 (W : Valuation τ sig (Elt F)) :
    StableHlo.after (hostOps1 : List (HloOp τ sig (Elt F))) W (Proc.devRef .tc main_v3) = W (Proc.devRef .tc main_v3) := by
  simp only [hostOps1]
  after_results

/-- The last of them leaves `tailVal` of the region's result. -/
theorem after1_v5 (W : Valuation τ sig (Elt F)) :
    StableHlo.after (hostOps1 : List (HloOp τ sig (Elt F))) W (Proc.devRef .tc main_v5) = tailVal (F := F) (W (Proc.devRef .tc main_v3)) := by
  simp only [hostOps1]
  after_results
  rfl

set_option backward.isDefEq.respectTransparency.types false in
/-- The later host operations, run from the arrays as the region left them and the bypassing buffers as the region
    found them, give the arrays back untouched and leave `Zend` of the region's result. -/
theorem tail_run (Q' : PUnit → sProp 𝕄) :
    iprop((iprop(dat.arrays (dat.arrAt · cfg0.N) ∗ Zend m c (dat.arrAt 4 cfg0.N)) -∗ Q' ⟨⟩)
        ∗ boundary (c : Thread nD τ) ∗ dat.arrays (dat.arrAt · cfg0.N)
        ∗ Pipeline.unscopedRest (Ix := Unit) (Name := ℕ) (U := UR sig nD τ) (Lvl := ℕ) spec0 c (V m c))
      ⊢ wp frame (wpE (defs (F := F)) (Variants.lift Variants.none) (c : Thread nD τ) none) Set.univ (Pipeline.chain [StableHlo.seq hostOps1]) Q' := by
  classical
  have s4 : dat.share 4 = fullShare := by
    unfold Dat.share; rw [if_pos (show (cfg0.win 4).isOut = true from rfl)]
  rw [Gen.unscopedRest0_eq]
  unfold Dat.arrays
  rw [Gen.bigSep_W0]
  simp only [Pipeline.chain_cons, Pipeline.chain_nil, View.set_whole]
  rw [s4]
  iintro ⟨Hk, Hb, ⟨A0, A1, A2, A3, A4⟩, U0, U1, Ucst, Uv4, Ucst0, Uv5⟩
  iapply (StableHlo.wp_seq (Variants.lift Variants.none) none Set.univ c tailS _ hostOps1
    (List.forall_iff_forall_mem.mp hostOps1_tailS) (List.forall_iff_forall_mem.mp hostOps1_fresh) (tailW m c (dat.arrAt 4 cfg0.N))) $$ [Hb A4 Ucst Uv4 Ucst0 Uv5]
  · rw [held_tailS, tailW_v3, tailW_ne m c _ (by decide : main_cst ≠ main_v3), tailW_ne m c _ (by decide : main_v4 ≠ main_v3),
      tailW_ne m c _ (by decide : main_cst_0 ≠ main_v3), tailW_ne m c _ (by decide : main_v5 ≠ main_v3)]
    isplitl [Hb]; · iexact Hb
    isplitl [A4]; · iexact A4
    isplitl [Ucst]; · iexact Ucst
    isplitl [Uv4]; · iexact Uv4
    isplitl [Ucst0]; · iexact Ucst0
    iexact Uv5
  iintro Hh
  rw [wp_pure, held_tailS, after1_v3, after1_v5, tailW_v3]
  imodintro
  iapply Hk
  icases Hh with ⟨-, A4, Ucst, Uv4, Ucst0, Uv5⟩
  isplitl [A0 A1 A2 A3 A4]
  · isplitl [A0]; · iexact A0
    isplitl [A1]; · iexact A1
    isplitl [A2]; · iexact A2
    isplitl [A3]; · iexact A3
    iexact A4
  · unfold Zend
    isplitl [U0]; · iexact U0
    isplitl [U1]; · iexact U1
    isplitl [Uv5]; · iexact Uv5
    isplitl [Ucst]; · iexists _; iexact Ucst
    isplitl [Uv4]; · iexists _; iexact Uv4
    iexists _; iexact Ucst0

end Cert.KernelIdeal.Hand

end
-- ==== Proof.KI.Launch.lean ====
/-
  The run of the whole program: the three earlier host operations, the region at every grid point, the four
  later host operations. Every weakly fair execution terminates without a fault; afterwards each window's
  array holds what the write-backs of the proof data leave in it, the two argument arrays hold what they held
  at launch, and the result scalar is the later operations' value of the region's result.
-/
import proofs.«168529_j5815385719271_2_alg».proof.Proof.KI.Frame
import proofs.«168529_j5815385719271_2_alg».proof.Proof.KI.Tail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_main : θ_run defs (onTc (τ := τ) (main (F := F))) (s₀ m ρ) (fun r => ∀ c : Dev nD,
      (∀ w, r.2.mem (((cfg0).spec w).arr.view.loc (c.tc : Thread nD τ)) = (dats m 0 c).arrAt w cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v5) = tailVal (F := F) ((dats m 0 c).arrAt 4 cfg0.N)) := by
  classical
  exact Pipeline.θ_run_region_pf_tail (fun q => (cfgs q).toPCfg (Val := Elt F)) (fun q => (cfgs q).toPCfg_adm) (dats m) () cellOf_inj 0
    winFacts₀0 (Pipeline.OwnSemFacts.none _) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs (dats m 0 c) rfl rfl rfl rfl (V m c) _ (fun w => A_eq m c w))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Zend m c ((dats m 0 c).arrAt 4 cfg0.N))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => tail_run m (dats m 0 c) Q')
    (QY := fun c s => s.mem ((c.tc : Thread nD τ).loc main_arg0) = V m c main_arg0
      ∧ s.mem ((c.tc : Thread nD τ).loc main_arg1) = V m c main_arg1
      ∧ s.mem ((c.tc : Thread nD τ).loc main_v5) = tailVal (F := F) ((dats m 0 c).arrAt 4 cfg0.N))
    (hY := fun c s' => by
      unfold Zend
      iintro ⟨-, ⟨H0, H1, H5, -⟩, HSI⟩
      icombine HSI H0 gives %h0
      icombine HSI H1 gives %h1
      icombine HSI H5 gives %h5
      imodintro
      isplitr
      · ipureintro; exact ⟨Buf.eq_of_forall_mem_univ h0, Buf.eq_of_forall_mem_univ h1, Buf.eq_of_forall_mem_univ h5⟩
      iexact HSI)
    (hQ := fun s h c => ⟨(h c).1, (h c).2.2.1.trans (V_main_arg0 m c), (h c).2.2.2.1.trans (V_main_arg1 m c), (h c).2.2.2.2⟩)

/-- THE FRAME: the program terminates without a fault and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.1, (h c).2.2.1⟩) (run_main m ρ)

end Cert.KernelIdeal.Hand

end
-- ==== Proof.PayTail.lean ====
/-
  The program's tail at the ideal values: the sum of an [8192, 1] array over both of its axes, from the zero
  word, divided by the row count. The host's sum into a scalar is the initial value plus the sum over every index;
  an index of an [8192, 1] array is a row and the one column; the zero word is the extended real `0`.
-/
import proofs.«168529_j5815385719271_2_alg».proof.Proof.Gen.KernelIdeal.Skeleton
import proofs.«168529_j5815385719271_2_alg».proof.Proof.Spec
import Idealize.ShloMosaic.Lib.ValueIdx
import Idealize.ShloMosaic.PureOps.Ideal.Laws

noncomputable section

namespace Cert.Loss.Pay

open Cert.KernelIdeal Cert.KernelIdeal.Gen Idealize.ShloMosaic Idealize.ShloMosaic.ValueIdx

/-- The sum over both axes of an [8192, 1] array, from the zero word: the sum over the rows. -/
theorem total_at (P : FVec Ideal S8192x1 .f32) (j : S_.Idx) :
    Host.reduceAdd (F := Ideal) P (constant (F := Ideal) S_ .f32 0x00000000#32) reducesTo_S8192x1_S_d0_1 h_S_ j
      = ∑ i : Fin 8192, P (ix2 i 0) := by
  simp only [Host.reduceAdd, Ideal.hostReduceAdd_def]
  refine (Ideal.hostReduceAdd_total reducesTo_S8192x1_S_d0_1 (fun b => b.elim0) P _ j).trans ?_
  refine (congrArg₂ (· + ·) Ideal.ofBits_zero_f32 (ValueIdx.sum_idx2 P)).trans ?_
  refine (zero_add _).trans ?_
  exact Finset.sum_congr rfl fun i _ => Fin.sum_univ_one _

/-- The tail: the total over the rows divided by the row count. -/
theorem tail_eq (P : FVec Ideal S8192x1 .f32) :
    Host.divf (F := Ideal) (Host.reduceAdd (F := Ideal) P (constant (F := Ideal) S_ .f32 0x00000000#32) reducesTo_S8192x1_S_d0_1 h_S_)
        (constant (F := Ideal) S_ .f32 0x46000000#32)
      = fun _ => Ideal.div (∑ i : Fin 8192, P (ix2 i 0)) Cert.Loss.cn :=
  funext fun j => congrArg (Ideal.div · Cert.Loss.cn) (total_at P j)

end Cert.Loss.Pay

end
-- ==== Proof.KI.Final.lean ====
/-
  From the blocks written back to the region's result, and from there to the program's result.

  The output block of block row `i` is written back once, after the point `(i, 3)`, when the accumulator holds
  the whole sums of rows `1024·i … 1024·i + 1023`. The eight blocks tile the result array, so after the region
  it holds each row's sum; the later host operations add the 8192 row sums and divide by the row count, which
  is the specification.
-/
import proofs.«168529_j5815385719271_2_alg».proof.Proof.KI.AccValue
import proofs.«168529_j5815385719271_2_alg».proof.Proof.KI.Launch
import proofs.«168529_j5815385719271_2_alg».proof.Proof.PayTail

set_option maxRecDepth 16384

noncomputable section

namespace Cert.KernelIdeal.Hand

open Cert.KernelIdeal Cert.KernelIdeal.Gen Cert.Loss
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg) (c : Dev nD)

/-- The region's result as one function of the arrays as launched: each row's sum. -/
def rowSums (X : (⟨2, ![8192, 256]⟩ : Shape).Idx → EReal) (T : (⟨1, ![8192]⟩ : Shape).Idx → BitVec 32) : S8192x1.Idx → EReal :=
  fun y => rowSum X T ⟨(y 0).val, idx2_lt0 y⟩

/-- The output window's block index at a point is its block row, decided over the grid. -/
theorem idx4 : ∀ t : Fin cfg0.N, win0_4.index t (0 : Fin 2) = t.val / 4 ∧ win0_4.index t (1 : Fin 2) = 0 :=
  (by decide +kernel : ∀ t : Fin grid0.N, win0_4.index t (0 : Fin 2) = t.val / 4 ∧ win0_4.index t (1 : Fin 2) = 0)

/-- An index of the result array is in point `t`'s block iff each coordinate is in the block's range. -/
theorem mem_blk4 (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v3).slice (win0_4.rect t)).set ↔ _
  rw [View.set_slice_whole, Rect.mem_set_unit]
  exact Iff.rfl

/-- Every index of the result array is in the block written back after the last point of its block row. -/
theorem cover4 (i : S8192x1.Idx) : ∃ t : Fin cfg0.N, (cfg0.win 4).flush t = true ∧ i ∈ ((cfg0.win 4).blk t).view.set := by
  have hi0 : (i 0).val < 8192 := (i 0).isLt
  have hi1 : (i 1).val < 1 := (i 1).isLt
  have hN : cfg0.N = 32 := N_0
  refine ⟨⟨4 * ((i 0).val / 1024) + 3, by omega⟩, (flush0_4 _).mpr (by show (4 * ((i 0).val / 1024) + 3) % 4 = 3; omega), ?_⟩
  rw [mem_blk4]
  obtain ⟨e0, e1⟩ := idx4 ⟨4 * ((i 0).val / 1024) + 3, by omega⟩
  intro a
  match a with
  | ⟨0, _⟩ =>
    show win0_4.index _ (0 : Fin 2) * 1024 ≤ (i 0).val ∧ (i 0).val < win0_4.index _ (0 : Fin 2) * 1024 + 1024
    rw [e0]; show (4 * ((i 0).val / 1024) + 3) / 4 * 1024 ≤ (i 0).val ∧ (i 0).val < (4 * ((i 0).val / 1024) + 3) / 4 * 1024 + 1024
    omega
  | ⟨1, _⟩ =>
    show win0_4.index _ (1 : Fin 2) * 1 ≤ (i 1).val ∧ (i 1).val < win0_4.index _ (1 : Fin 2) * 1 + 1
    rw [e1]; omega

/-- What the last point of a block row writes back is that block of the row sums. -/
theorem flushed4_eq (t : Fin cfg0.N) (hf : (cfg0.win 4).flush t = true) :
    (dats m 0 c).flushed 4 t = ((cfg0.win 4).blk t).view.read (Elt Ideal) (rowSums (X0 m c) (T0 m c)) := by
  have h1 : t.val % 4 = 3 := (flush0_4 t).mp hf
  show (cfg0.win 4).cut (grid0.coords t) ((dats m 0 c).after 4 t) = _
  rw [after0_4]
  funext j
  obtain ⟨r, u, rfl⟩ : ∃ (r : Fin 1024) (u : Fin 1), j = ix2 r u := ⟨j 0, j 1, eq_ix2 j⟩
  obtain rfl : u = 0 := Subsingleton.elim _ _
  show (outsAt0 m c t.val t.isLt).1 (ix2 r 0) = rowSums (X0 m c) (T0 m c) (((cfg0.win 4).blk t).view.emb (ix2 r 0))
  rw [out_apply m c t h1 r]
  unfold rowSums
  refine congrArg (rowSum _ _) (Fin.ext ?_)
  obtain ⟨e0, e1⟩ := idx4 t
  show 1024 * (t.val / 4) + r.val = win0_4.index t (0 : Fin 2) * 1024 + 1 * r.val
  rw [e0]; omega

/-- The region's result: every row's sum. -/
theorem final4 : (dats m 0 c).arrAt 4 cfg0.N = rowSums (X0 m c) (T0 m c) :=
  (dats m 0 c).arrAt_eq_of_cover 4 (rowSums (X0 m c) (T0 m c)) (fun t hf => flushed4_eq m c t hf) cover4

/-- The later host operations turn the row sums into the specification's value. -/
theorem tail_rowSums (X : (⟨2, ![8192, 256]⟩ : Shape).Idx → EReal) (T : (⟨1, ![8192]⟩ : Shape).Idx → BitVec 32) :
    tailVal (F := Ideal) (rowSums X T) = G X T := by
  unfold tailVal
  rw [Cert.Loss.Pay.tail_eq]
  funext _
  unfold G total rowSums
  exact congrArg (Ideal.div · cn) (Finset.sum_congr rfl fun i _ => congrArg (rowSum X T) (Fin.ext rfl))

/-- THE IDEALIZED KERNEL'S RUN: it terminates without a fault, its result is the specification of the arrays as
    launched, and the argument arrays are unchanged. -/
theorem value_run : θ_run defs (onTc (τ := τ) (main (F := Ideal))) ⟨m, fun _ => 0, ρ⟩ (fun r => ∀ c : Dev nD,
      r.2.mem ((c.tc : Thread nD τ).loc main_v5) = G (X0 m c) (T0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).2.2.2.trans (by rw [final4 m c]; exact tail_rowSums _ _), (h c).2.1, (h c).2.2.1⟩)
    (run_main m ρ)

end Cert.KernelIdeal.Hand

end
-- ==== Proof.PairLaw.lean ====
/-
  One ordered pair's contribution, as the reference program splits it, is the specification's term.

  The reference program adds two masked quantities per pair: the hinge part, kept when the labels agree and
  the inner product `s` is below one, and the margin part, kept when the labels differ and `s` exceeds the
  margin. For every extended real `s` and either value of the label bit their sum is the term the
  specification states: for equal labels `max (1 - s) 0`, which is `1 - s` exactly when `s < 1` and zero
  otherwise (also at the two infinities), and for different labels the margin part alone.
-/
import proofs.«168529_j5815385719271_2_alg».proof.Proof.Spec
import Idealize.ShloMosaic.PureOps.Ideal.Laws

noncomputable section

namespace Cert.Loss.Ref

open Idealize.ShloMosaic Idealize.ShloMosaic.ValueIdx

/-- The hinge `max (c - s) 0` is `c - s` when `s < c` and zero otherwise, for all extended reals: a
    difference is positive exactly when its subtrahend is the smaller, and nonpositive otherwise. -/
theorem max_sub_zero (c s : EReal) : max (c - s) 0 = if s < c then c - s else 0 := by
  by_cases h : s < c
  · rw [if_pos h]
    exact max_eq_left (EReal.sub_pos.2 h).le
  · rw [if_neg h]
    exact max_eq_right (EReal.sub_nonpos.2 (not_lt.1 h))

/-- A select on a decided proposition's bit is the `if`. -/
theorem select_ofBool_decide {α : Type} (p : Prop) [Decidable p] (a b : α) :
    Scalar.select (BitVec.ofBool (decide p)) a b = if p then a else b := by
  by_cases h : p
  · rw [if_pos h, decide_eq_true h]; exact select_one a b
  · rw [if_neg h, decide_eq_false h]; exact select_zero a b

/-- The conjunction of one-bit words with the zero bit on the left is zero. -/
theorem andi_zero_left (b : BitVec 1) : IntOp.andi 0#1 b = 0#1 := by
  rcases BitVec.eq_zero_or_eq_one b with h | h <;> subst h <;> rfl

/-- The conjunction of one-bit words with the one bit on the left is the right operand. -/
theorem andi_one_left (b : BitVec 1) : IntOp.andi 1#1 b = b := by
  rcases BitVec.eq_zero_or_eq_one b with h | h <;> subst h <;> rfl

/-- THE PAIR LAW. The hinge part plus the margin part is the specification's term, for every extended real
    `s` and both values of the label bit. -/
theorem pair_law (e : BitVec 1) (s : EReal) :
    Scalar.select (IntOp.andi e (Ideal.cmp .olt s c1)) (c1 - s) c0
      + Scalar.select (IntOp.andi (~~~e) (Ideal.cmp .ogt s cm)) s c0 = term e s := by
  have h0 : c0 = 0 := Ideal.ofBits_zero_f32
  rcases BitVec.eq_zero_or_eq_one e with he | he
  · -- different labels: the hinge part is masked, the margin part stands alone
    subst he
    have hn : (~~~(0#1) : BitVec 1) = 1#1 := rfl
    rw [andi_zero_left, hn, andi_one_left, select_zero]
    unfold term
    rw [select_zero, h0, zero_add]
  · -- equal labels: the margin part is masked, the hinge part is the maximum with zero
    subst he
    have hn : (~~~(1#1) : BitVec 1) = 0#1 := rfl
    rw [andi_one_left, hn, andi_zero_left, select_zero]
    unfold term
    rw [select_one, h0, add_zero, max_sub_zero]
    exact select_ofBool_decide (s < c1) (c1 - s) 0

end Cert.Loss.Ref

end
-- ==== Proof.RefValue.lean ====
/-
  The reference program's result, read at the extended reals, is the specification.

  The reference program forms every inner product `s(i,k)` of two rows by a contraction of the array with its
  transpose, the bit saying whether two labels agree by comparing two broadcasts of the label vector, the
  hinge part and the margin part of each ordered pair by two masked selects, sums each part along a row,
  adds the two row sums, sums over the rows and divides by the row count. Read index by index: each cell of
  the two masked arrays is the pair law's left side, so a row's two sums add up to the specification's row
  sum (a finite sum of sums is the sum of the sums), the sum over rows is the total, and the division is the
  specification's.
-/
import proofs.«168529_j5815385719271_2_alg».proof.Proof.Gen.ReferenceIdeal.Read
import proofs.«168529_j5815385719271_2_alg».proof.Proof.Spec
import proofs.«168529_j5815385719271_2_alg».proof.Proof.PairLaw

noncomputable section

namespace Cert.Loss.Ref

open Idealize.ShloMosaic Idealize.ShloMosaic.ValueIdx
open Cert.ReferenceIdeal Cert.ReferenceIdeal.Read

/-- The array arguments, typed as the generated reading lemmas type them. -/
abbrev XTy := (⟨Cert.ReferenceIdeal.S8192x256, .f32⟩ : BufTy).Contents (Elt Ideal)
abbrev TTy := (⟨Cert.ReferenceIdeal.S8192, .i32⟩ : BufTy).Contents (Elt Ideal)

/-! ## Index equations: the composed index functions of the reading lemmas, at coordinates -/

theorem lidx_eq (i k : Fin 8192) (d : Fin 256) : lidx_main_v1 (ix2 i k) d = ix2 i d :=
  funext fun a => Fin.ext (by match a with | ⟨0, _⟩ => rfl | ⟨1, _⟩ => rfl)

theorem ridx_eq (i k : Fin 8192) (d : Fin 256) : idx_main_v0 (ridx_main_v1 (ix2 i k) d) = ix2 k d :=
  funext fun a => Fin.ext (by match a with | ⟨0, _⟩ => rfl | ⟨1, _⟩ => rfl)

theorem row_label_idx (i k : Fin 8192) : idx_main_v2 (idx_main_v4 (ix2 i k)) = ix1 i :=
  funext fun a => Fin.ext (by match a with | ⟨0, _⟩ => rfl)

theorem col_label_idx (i k : Fin 8192) : idx_main_v3 (idx_main_v5 (ix2 i k)) = ix1 k :=
  funext fun a => Fin.ext (by match a with | ⟨0, _⟩ => rfl)

theorem pos_row_idx (i k : Fin 8192) : idx_main_v17 (ix1 i) k = ix2 i k :=
  funext fun a => Fin.ext (by match a with | ⟨0, _⟩ => rfl | ⟨1, _⟩ => rfl)

theorem neg_row_idx (i k : Fin 8192) : idx_main_v19 (ix1 i) k = ix2 i k :=
  funext fun a => Fin.ext (by match a with | ⟨0, _⟩ => rfl | ⟨1, _⟩ => rfl)

/-! ## The cells of the pairwise arrays -/

/-- The contraction's cell `(i, k)` is the inner product of rows `i` and `k`. -/
theorem gram_cell (X : XTy) (i k : Fin 8192) : val_main_v1 (F := Ideal) X (ix2 i k) = sim X i k := by
  rw [val_main_v1_apply]
  unfold sim
  refine Finset.sum_congr rfl fun d _ => ?_
  rw [val_main_v0_apply, lidx_eq, ridx_eq]

/-- The label-equality bit's cell `(i, k)` compares labels `i` and `k`. -/
theorem same_cell (T : TTy) (i k : Fin 8192) :
    val_main_v6 (F := Ideal) T (ix2 i k) = IntOp.cmpi .eq (T (ix1 i)) (T (ix1 k)) := by
  rw [val_main_v6_apply, val_main_v4_apply, val_main_v5_apply, val_main_v2_apply, val_main_v3_apply,
    row_label_idx, col_label_idx]

/-- The hinge part's cell. -/
theorem pos_cell (X : XTy) (T : TTy) (i k : Fin 8192) :
    val_main_v16 (F := Ideal) X T (ix2 i k)
      = Scalar.select (IntOp.andi (IntOp.cmpi .eq (T (ix1 i)) (T (ix1 k))) (Ideal.cmp .olt (sim X i k) c1))
          (c1 - sim X i k) c0 := by
  rw [val_main_v16_apply, val_main_v9_apply, val_main_v8_apply, val_main_v15_apply, same_cell, gram_cell,
    val_main_v7_apply, val_main_cst_apply, val_main_v14_apply, val_main_cst_1_apply,
    val_main_call0_v1_apply, val_main_call0_v0_apply, val_main_cst_2_apply]
  rfl

/-- The margin part's cell. -/
theorem neg_cell (X : XTy) (T : TTy) (i k : Fin 8192) :
    val_main_v18 (F := Ideal) X T (ix2 i k)
      = Scalar.select (IntOp.andi (~~~(IntOp.cmpi .eq (T (ix1 i)) (T (ix1 k)))) (Ideal.cmp .ogt (sim X i k) cm))
          (sim X i k) c0 := by
  rw [val_main_v18_apply, val_main_v13_apply, val_main_v10_apply, val_main_v12_apply, same_cell, gram_cell,
    val_main_v11_apply, val_main_cst_0_apply,
    val_main_call1_v1_apply, val_main_call1_v0_apply, val_main_cst_4_apply]
  rfl

/-! ## Rows, the total, the quotient -/

/-- A row's two sums add up to the specification's row sum. -/
theorem row_cell (X : XTy) (T : TTy) (i : Fin 8192) :
    val_main_v20 (F := Ideal) X T (ix1 i) = rowSum X T i := by
  have h0 : c0 = 0 := Ideal.ofBits_zero_f32
  rw [val_main_v20_apply, val_main_v17_apply, val_main_v19_apply, val_main_cst_3_apply, val_main_cst_5_apply]
  show (c0 + ∑ k : Fin 8192, val_main_v16 (F := Ideal) X T (idx_main_v17 (ix1 i) k))
      + (c0 + ∑ k : Fin 8192, val_main_v18 (F := Ideal) X T (idx_main_v19 (ix1 i) k)) = rowSum X T i
  rw [h0, zero_add, zero_add, ← Finset.sum_add_distrib]
  unfold rowSum
  refine Finset.sum_congr rfl fun k _ => ?_
  rw [pos_row_idx, neg_row_idx, pos_cell, neg_cell]
  exact pair_law _ _

/-- A rank-1 index set is its coordinate's range. -/
def idxEquiv1 {n : Nat} : (⟨1, ![n]⟩ : Shape).Idx ≃ Fin n where
  toFun j := j 0
  invFun a := ix1 a
  left_inv j := (eq_ix1 j).symm
  right_inv _ := rfl

/-- A sum over a rank-1 index set is the sum over the coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- THE REFERENCE IS THE SPECIFICATION. -/
theorem ref_eq (X : (⟨Cert.ReferenceIdeal.S8192x256, .f32⟩ : BufTy).Contents (Elt Ideal)) (T : (⟨Cert.ReferenceIdeal.S8192, .i32⟩ : BufTy).Contents (Elt Ideal)) :
    Cert.ReferenceIdeal.Read.val_main_v22 (F := Ideal) X T = Cert.Loss.G X T := by
  funext j
  have h0 : c0 = 0 := Ideal.ofBits_zero_f32
  rw [val_main_v22_apply, val_main_v21_apply, val_main_cst_6_apply, val_main_cst_7_apply, Ideal.hostDivf_def]
  show Ideal.div (c0 + ∑ r : (⟨1, ![8192]⟩ : Shape).Idx, val_main_v20 (F := Ideal) X T r) cn = G X T j
  rw [h0, zero_add, sum_idx1]
  unfold G total
  exact congrArg (Ideal.div · cn) (Finset.sum_congr rfl fun i _ => row_cell X T i)

end Cert.Loss.Ref

end
-- ==== Proof.lean ====
/-
  The certificate of a contrastive-loss kernel against its jnp reference.

  For an 8192 × 256 array `X` and 8192 labels, with `s(i,k)` the inner product of rows `i` and `k`: a pair
  with equal labels contributes `max (1 - s) 0`, a pair with different labels contributes `s` when `s` exceeds
  the margin and `0` otherwise; the result is the sum over all ordered pairs divided by the row count
  (Proof/Spec.lean). The kernel walks an 8 × 4 grid of 1024 × 2048 tiles of the pair matrix, keeps each block
  row's partial row sums in an accumulator across the four tiles, writes the finished row sums back after the
  fourth, and sums them on the host; the reference builds the whole pair matrix and splits each pair's
  contribution into a hinge part and a margin part that it sums separately. At the extended reals the two
  select trees agree on every pair (for every value of `s`, infinite ones included), and the rest is a
  regrouping of finite sums, so no finiteness of the input is used.

  The frames (both kernel programs terminate without a fault and leave their arguments unchanged) are proved
  once for any float instance (Proof/KI, and its copy Proof/K for the program as printed): two of the
  pallas_call's windows read the same array, which the region therefore holds in two half shares. The ideal
  pass rewrote nothing, so `preserves` is trivial. The reference's frame is its run with the result dropped.
-/
import proofs.«168529_j5815385719271_2_alg».proof.Defs
import proofs.«168529_j5815385719271_2_alg».proof.Proof.Gen.Kernel
import proofs.«168529_j5815385719271_2_alg».proof.Proof.Gen.KernelIdeal
import proofs.«168529_j5815385719271_2_alg».proof.Proof.Gen.ReferenceIdeal
import proofs.«168529_j5815385719271_2_alg».proof.Proof.Gen.Pre_finite_inputs
import proofs.«168529_j5815385719271_2_alg».proof.Proof.Gen.ReferenceIdeal.Read
import proofs.«168529_j5815385719271_2_alg».proof.Proof.K.Launch
import proofs.«168529_j5815385719271_2_alg».proof.Proof.KI.Final
import proofs.«168529_j5815385719271_2_alg».proof.Proof.RefValue

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the specification's value of the arrays they were launched with, and
    those arrays agree. -/
theorem algebraic : Cert.algebraic_KernelIdeal_ReferenceIdeal := by
  intro m ρ m' ρ' _ hagree
  refine ⟨fun c => Cert.Loss.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.Loss.Ref.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
